-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 120
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S850000x1, .f32⟩
  | .hbm, ⟨52, _⟩ => ⟨S50000x64, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x64, .f32⟩
  | .hbm, ⟨96, _⟩ => ⟨S850000x64, .f32⟩
  | .hbm, ⟨97, _⟩ => ⟨S850000x64, .f32⟩
  | .hbm, ⟨98, _⟩ => ⟨S_, .f32⟩
  | .hbm, ⟨99, _⟩ => ⟨S50000x64, .f32⟩
  | .hbm, ⟨100, _⟩ => ⟨S850000x1, .i32⟩
  | .hbm, ⟨101, _⟩ => ⟨S50000x64, .f32⟩
  | .hbm, ⟨102, _⟩ => ⟨S1x64, .f32⟩
  | .hbm, ⟨103, _⟩ => ⟨S1x1, .f32⟩
  | .hbm, ⟨104, _⟩ => ⟨S50000x1, .f32⟩
  | .hbm, ⟨105, _⟩ => ⟨S_, .f32⟩
  | .hbm, ⟨106, _⟩ => ⟨S64x1, .f32⟩
  | .hbm, ⟨107, _⟩ => ⟨S50000x1, .i32⟩
  | .hbm, ⟨108, _⟩ => ⟨S64x1, .f32⟩
  | .hbm, ⟨109, _⟩ => ⟨S_, .f32⟩
  | .hbm, ⟨110, _⟩ => ⟨S50000x1, .f32⟩
  | .hbm, ⟨111, _⟩ => ⟨S_, .f32⟩
  | .hbm, ⟨112, _⟩ => ⟨S64x1, .f32⟩
  | .hbm, ⟨113, _⟩ => ⟨S50000x1, .i32⟩
  | .hbm, ⟨114, _⟩ => ⟨S64x1, .f32⟩
  | .hbm, ⟨115, _⟩ => ⟨S_, .f32⟩
  | .hbm, ⟨116, _⟩ => ⟨S64x1, .f32⟩
  | .hbm, ⟨117, _⟩ => ⟨S64x1, .f32⟩
  | .hbm, ⟨118, _⟩ => ⟨S64x1, .f32⟩
  | .hbm, ⟨119, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S64x1 : S_.BroadcastsInDim S64x1 (![] : Fin 0 → Fin S64x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  shapeCasts_S64x1_S64 : S64x1.ShapeCasts S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  scatter_S64x1_S50000x1_S50000x1_1_0_0_1_wf : ScatterDims.WF S64x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .f32 = 32 ∨ (Rect.block (s := S50000x1) S5000x1.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x64, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .i1⟩
  | 74 => ⟨S_, .f32⟩
  | 75 => ⟨S50000x64, .f32⟩
  | 76 => ⟨S50000x64, .i1⟩
  | 77 => ⟨S_, .f32⟩
  | 78 => ⟨S_, .f32⟩
  | 79 => ⟨S50000x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S50000x64, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x64, .f32⟩
  | 96 => ⟨S850000x1, .f32⟩
  | 97 => ⟨S850000x64, .f32⟩
  | 98 => ⟨S850000x64, .f32⟩
  | 99 => ⟨S_, .f32⟩
  | 100 => ⟨S50000x64, .f32⟩
  | 101 => ⟨S850000x1, .i32⟩
  | 102 => ⟨S50000x64, .f32⟩
  | 103 => ⟨S1x64, .f32⟩
  | 104 => ⟨S50000x64, .f32⟩
  | 105 => ⟨S50000x64, .f32⟩
  | 106 => ⟨S_, .f32⟩
  | 107 => ⟨S50000x64, .f32⟩
  | 108 => ⟨S50000x64, .i1⟩
  | 109 => ⟨S_, .f32⟩
  | 110 => ⟨S50000x64, .f32⟩
  | 111 => ⟨S50000x64, .i1⟩
  | 112 => ⟨S_, .f32⟩
  | 113 => ⟨S_, .f32⟩
  | 114 => ⟨S50000x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000x64, .f32⟩
  | 3 => ⟨S850000x1, .f32⟩
  | 4 => ⟨S850000x64, .f32⟩
  | 5 => ⟨S850000x64, .f32⟩
  | 6 => ⟨S_, .f32⟩
  | 7 => ⟨S50000x64, .f32⟩
  | 8 => ⟨S850000x1, .i32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .i1⟩
  | 16 => ⟨S_, .f32⟩
  | 17 => ⟨S50000x64, .f32⟩
  | 18 => ⟨S50000x64, .i1⟩
  | 19 => ⟨S_, .f32⟩
  | 20 => ⟨S_, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S50000x1, .f32⟩
  | 29 => ⟨S1x1, .f32⟩
  | 30 => ⟨S50000x1, .f32⟩
  | 31 => ⟨S50000x1, .f32⟩
  | 32 => ⟨S_, .f32⟩
  | 33 => ⟨S64x1, .f32⟩
  | 34 => ⟨S50000x1, .i32⟩
  | 35 => ⟨S64x1, .f32⟩
  | 36 => ⟨S_, .f32⟩
  | 37 => ⟨S50000x1, .f32⟩
  | 38 => ⟨S_, .f32⟩
  | 39 => ⟨S64x1, .f32⟩
  | 40 => ⟨S50000x1, .i32⟩
  | 41 => ⟨S64x1, .f32⟩
  | 42 => ⟨S_, .f32⟩
  | 43 => ⟨S64x1, .f32⟩
  | 44 => ⟨S64x1, .f32⟩
  | 45 => ⟨S64x1, .f32⟩
  | 46 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_cst_1 : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_v4 : Ref sig .tc := ⟨.hbm, 80, rfl⟩
abbrev main_call1_v5 : Ref sig .tc := ⟨.hbm, 81, rfl⟩
abbrev main_call1_cst_2 : Ref sig .tc := ⟨.hbm, 82, rfl⟩
abbrev main_call1_v6 : Ref sig .tc := ⟨.hbm, 83, rfl⟩
abbrev main_call1_v7 : Ref sig .tc := ⟨.hbm, 84, rfl⟩
abbrev main_v47 : Ref sig .tc := ⟨.hbm, 85, rfl⟩
abbrev main_v48 : Ref sig .tc := ⟨.hbm, 86, rfl⟩
abbrev main_c_9 : Ref sig .tc := ⟨.hbm, 87, rfl⟩
abbrev main_v49 : Ref sig .tc := ⟨.hbm, 88, rfl⟩
abbrev main_v50 : Ref sig .tc := ⟨.hbm, 89, rfl⟩
abbrev main_c_10 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_11 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_cst_1 : Ref sig .tc := ⟨.hbm, 112, rfl⟩
abbrev main_call2_call0_v0 : Ref sig .tc := ⟨.hbm, 113, rfl⟩
abbrev main_call2_call0_v1 : Ref sig .tc := ⟨.hbm, 114, rfl⟩
abbrev main_call2_v4 : Ref sig .tc := ⟨.hbm, 115, rfl⟩
abbrev main_call2_v5 : Ref sig .tc := ⟨.hbm, 116, rfl⟩
abbrev main_call2_cst_2 : Ref sig .tc := ⟨.hbm, 117, rfl⟩
abbrev main_call2_v6 : Ref sig .tc := ⟨.hbm, 118, rfl⟩
abbrev main_call2_v7 : Ref sig .tc := ⟨.hbm, 119, rfl⟩
abbrev main_v65 : Ref sig .tc := ⟨.hbm, 120, rfl⟩
abbrev main_v66 : Ref sig .tc := ⟨.hbm, 121, rfl⟩
abbrev main_c_12 : Ref sig .tc := ⟨.hbm, 122, rfl⟩
abbrev main_v67 : Ref sig .tc := ⟨.hbm, 123, rfl⟩
abbrev main_v68 : Ref sig .tc := ⟨.hbm, 124, rfl⟩
abbrev main_c_13 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_14 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_cst_1 : Ref sig .tc := ⟨.hbm, 147, rfl⟩
abbrev main_call3_call0_v0 : Ref sig .tc := ⟨.hbm, 148, rfl⟩
abbrev main_call3_call0_v1 : Ref sig .tc := ⟨.hbm, 149, rfl⟩
abbrev main_call3_v4 : Ref sig .tc := ⟨.hbm, 150, rfl⟩
abbrev main_call3_v5 : Ref sig .tc := ⟨.hbm, 151, rfl⟩
abbrev main_call3_cst_2 : Ref sig .tc := ⟨.hbm, 152, rfl⟩
abbrev main_call3_v6 : Ref sig .tc := ⟨.hbm, 153, rfl⟩
abbrev main_call3_v7 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_cst_15 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_cst_16 : Ref sig .tc := ⟨.hbm, 164, rfl⟩
abbrev main_v91 : Ref sig .tc := ⟨.hbm, 165, rfl⟩
abbrev main_cst_17 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_18 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S64x1 : S_.BroadcastsInDim S64x1 (![] : Fin 0 → Fin S64x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  shapeCasts_S64x1_S64 : S64x1.ShapeCasts S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  scatter_S64x1_S50000x1_S50000x1_1_0_0_1_wf : ScatterDims.WF S64x1 S50000x1 S50000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.KernelRun.lean ====
/-
  The idealized kernel program's run with its RESULT named. The program is eleven segments — three stretches of host
  operations, then four times a kernel region followed by a stretch of host operations — and the contents of every
  buffer at each segment boundary are a fold from the launch memory (`W0` … `W11` of the frame module): a stretch applies
  its operations in order, a region leaves its output array at what its grid points wrote back and every other buffer as
  it found it. Every weakly fair execution terminates with each unscoped buffer at the last boundary's contents; read at
  the result buffer that is `W11 m ρ c main_v85`, and at the eleven arguments the launch contents.
-/
import proofs.«110824_j62483184222290_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this one, which takes
-- unfolding plain definitions in a metavariable's type
set_option backward.isDefEq.respectTransparency.types false in
/-- From any memory with zero counters every weakly fair execution of the program terminates, nothing faulting, with the
    result buffer at the last boundary's contents and the argument arrays as launched: the launch theorem over the
    program's segments, the last thread state read against the final state. -/
theorem run_result : θ_run defs (onTc (τ := τ) (main (F := F))) ⟨m, fun _ => 0, ρ⟩ (fun r => ∀ c : Dev nD,
      r.2.mem ((c.tc : Thread nD τ).loc main_v85) = W11 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v85 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.Spec.lean ====
/-
  The network as functions of whole arrays, on the extended reals: three graph-convolution layers and a mean pool.

  The edge list `a1 : i32[2, E]` gives sources (row 0) and targets (row 1); a self loop is appended per node, so there are
  E + N messages. With deg(n) = the number of messages whose target is n, dinv = deg^(-1/2) where deg > 0 and 0 elsewhere,
  and norm(e) = dinv(src e) · dinv(tgt e), one propagation of an N×64 array `lin` is

      gs a1 lin (n, j) = Σ_{e : tgt e = n} lin (src e, j) · norm e                 (a gather of rows, a scale, a scatter-add)

  (an index read signed, a negative one wrapped once by N before the gather clamps it). A layer is
  h ↦ elu (gs a1 (h · W) + b), with elu t = t where t > 0 and 1 · (exp t − 1) elsewhere; the head is h · Wl + bl, and the
  result the per-graph mean of the head over the nodes of each of the 64 graphs (the count floored at 1).
  The functions are spelt with the host operations of the reference program, over its shapes.
-/
import proofs.«110824_j62483184222290_1_alg».proof.ReferenceIdeal
import proofs.«110824_j62483184222290_1_alg».proof.Proof.Gen.ReferenceIdeal
import Idealize.ShloMosaic.PureOps.Ideal

noncomputable section

namespace Cert.Gcn

open Idealize.ShloMosaic Cert.ReferenceIdeal Cert.ReferenceIdeal.Facts₀

/-- The scalar 0 and the scalar 1. -/
def zeroS : FVec Ideal S_ .f32 := constant (F := Ideal) S_ .f32 0x00000000#32
def oneS : FVec Ideal S_ .f32 := constant (F := Ideal) S_ .f32 0x3F800000#32

/-- The sources of the E + N messages: row 0 of the edge list, then the nodes themselves. -/
def srcOf (a1 : IVec S2x800000 32) : IVec S850000 32 :=
  concatenate S850000 0 [⟨S800000, shapeCast S800000 (extractStridedSlice S1x800000 ![0, 0] a1 slices_S2x800000_S1x800000_0_0) shapeCasts_S1x800000_S800000⟩,
    ⟨S50000, iotaInDim S50000 32 0⟩] concatenates_S800000_S50000_S850000_d0

/-- The targets: row 1 of the edge list, then the nodes themselves. -/
def tgtOf (a1 : IVec S2x800000 32) : IVec S850000 32 :=
  concatenate S850000 0 [⟨S800000, shapeCast S800000 (extractStridedSlice S1x800000 ![1, 0] a1 slices_S2x800000_S1x800000_1_0) shapeCasts_S1x800000_S800000⟩,
    ⟨S50000, iotaInDim S50000 32 0⟩] concatenates_S800000_S50000_S850000_d0

/-- A list of message ends as a column of row numbers. -/
def colOf (v : IVec S850000 32) : IVec S850000x1 32 := broadcastInDim S850000x1 ![0] bcast_S850000_S850000x1_0 v

/-- A negative row number wrapped once by N. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- deg(n): the number of messages whose target is n. -/
def degOf (a1 : IVec S2x800000 32) : FVec Ideal S50000 .f32 :=
  Host.scatterAdd scatter_S50000_S850000x1_S850000_n_0_0_1 (broadcastInDim S50000 ![] bcast_S_S50000 zeroS) (colOf (tgtOf a1))
    (broadcastInDim S850000 ![] bcast_S_S850000 oneS)

/-- dinv(n) = deg(n)^(-1/2) where deg(n) > 0, and 0 elsewhere. -/
def dinvOf (a1 : IVec S2x800000 32) : FVec Ideal S50000 .f32 :=
  select (cmpf .ogt (degOf a1) (broadcastInDim S50000 ![] bcast_S_S50000 zeroS)) (Host.rsqrt (degOf a1))
    (broadcastInDim S50000 ![] bcast_S_S50000 (id zeroS))

/-- norm(e) = dinv(src e) · dinv(tgt e). -/
def normOf (a1 : IVec S2x800000 32) : FVec Ideal S850000 .f32 :=
  mulf (Host.gather gather_S50000_S850000x1_S850000_n_0_n_n_0_1_1 (dinvOf a1) (colOf (wrap (srcOf a1))))
    (Host.gather gather_S50000_S850000x1_S850000_n_0_n_n_0_1_1 (dinvOf a1) (colOf (wrap (tgtOf a1))))

/-- norm as a column. -/
def normCol (a1 : IVec S2x800000 32) : FVec Ideal S850000x1 .f32 := broadcastInDim S850000x1 ![0] bcast_S850000_S850000x1_0 (normOf a1)

/-- One propagation: the rows of `lin` at the sources, each scaled by its message's norm, summed into the targets' rows.
    The three index lists are parameters (the programs pass `srcOf a1`, `tgtOf a1` and the column `normCol a1`). -/
def gsAt (src tgt : IVec S850000 32) (ncol : FVec Ideal S850000x1 .f32) (lin : FVec Ideal S50000x64 .f32) : FVec Ideal S50000x64 .f32 :=
  Host.scatterAdd scatter_S50000x64_S850000x1_S850000x64_1_0_0_1 (broadcastInDim S50000x64 ![] bcast_S_S50000x64 zeroS) (colOf tgt)
    (mulf (Host.gather gather_S50000x64_S850000x1_S850000x64_1_0_n_n_0_1_164 lin (colOf (wrap src)))
      (broadcastInDim S850000x64 ![0, 1] bcast_S850000x1_S850000x64_0_1 ncol))

def gs (a1 : IVec S2x800000 32) (lin : FVec Ideal S50000x64 .f32) : FVec Ideal S50000x64 .f32 := gsAt (srcOf a1) (tgtOf a1) (normCol a1) lin

/-- elu t = t where t > 0, and 1 · (exp t − 1) elsewhere (the exponential taken of 0 where t > 0, and unread there). -/
def eluH (t : FVec Ideal S50000x64 .f32) : FVec Ideal S50000x64 .f32 :=
  select (cmpf .ogt t (broadcastInDim S50000x64 ![] bcast_S_S50000x64 zeroS)) t
    (mulf (broadcastInDim S50000x64 ![] bcast_S_S50000x64 oneS)
      (Host.expm1 (select (cmpf .ogt t (broadcastInDim S50000x64 ![] bcast_S_S50000x64 zeroS))
        (broadcastInDim S50000x64 ![] bcast_S_S50000x64 (id zeroS)) t)))

/-- A one-row matrix added to every row of an N×64 array. -/
def addRow64 (t : FVec Ideal S50000x64 .f32) (brow : FVec Ideal S1x64 .f32) : FVec Ideal S50000x64 .f32 :=
  addf t (broadcastInDim S50000x64 ![0, 1] bcast_S1x64_S50000x64_0_1 brow)

/-- A bias vector as a one-row matrix. -/
def rowOf (b : FVec Ideal S64 .f32) : FVec Ideal S1x64 .f32 := broadcastInDim S1x64 ![1] bcast_S64_S1x64_1 b

/-- The first layer's dense step, x · W1. -/
def lin128 (x : FVec Ideal S50000x128 .f32) (W : FVec Ideal S128x64 .f32) : FVec Ideal S50000x64 .f32 :=
  Host.dotGeneral dot_S50000x128_S128x64_S50000x64_1_0_0_1_n_n none x W

/-- A later layer's dense step on the previous aggregate: elu (agg + b) · W. -/
def dense64 (agg : FVec Ideal S50000x64 .f32) (brow : FVec Ideal S1x64 .f32) (W : FVec Ideal S64x64 .f32) : FVec Ideal S50000x64 .f32 :=
  Host.dotGeneral dot_S50000x64_S64x64_S50000x64_1_0_0_1_n_n none (eluH (addRow64 agg brow)) W

/-- The head on the last aggregate: elu (agg + b) · Wl + bl. -/
def head (agg : FVec Ideal S50000x64 .f32) (brow : FVec Ideal S1x64 .f32) (Wl : FVec Ideal S64x1 .f32) (bl11 : FVec Ideal S1x1 .f32) : FVec Ideal S50000x1 .f32 :=
  addf (Host.dotGeneral dot_S50000x64_S64x1_S50000x1_1_0_0_1_n_n none (eluH (addRow64 agg brow)) Wl)
    (broadcastInDim S50000x1 ![0, 1] bcast_S1x1_S50000x1_0_1 bl11)

/-- The per-graph mean of the head over each graph's nodes, the count floored at 1. -/
def pool (batch : IVec S50000 32) (h : FVec Ideal S50000x1 .f32) : FVec Ideal S64 .f32 :=
  shapeCast S64
    (Host.divf
      (Host.scatterAdd scatter_S64x1_S50000x1_S50000x1_1_0_0_1 (broadcastInDim S64x1 ![] bcast_S_S64x1 zeroS)
        (broadcastInDim S50000x1 ![0] bcast_S50000_S50000x1_0 batch) h)
      (maximumf
        (Host.scatterAdd scatter_S64x1_S50000x1_S50000x1_1_0_0_1 (broadcastInDim S64x1 ![] bcast_S_S64x1 zeroS)
          (broadcastInDim S50000x1 ![0] bcast_S50000_S50000x1_0 batch) (broadcastInDim S50000x1 ![] bcast_S_S50000x1 oneS))
        (broadcastInDim S64x1 ![] bcast_S_S64x1 oneS)))
    shapeCasts_S64x1_S64

/-- The whole network: the result as one function of the eleven argument arrays. -/
def net (x : FVec Ideal S50000x128 .f32) (a1 : IVec S2x800000 32) (batch : IVec S50000 32) (W1 : FVec Ideal S128x64 .f32) (b1 : FVec Ideal S64 .f32)
    (W2 : FVec Ideal S64x64 .f32) (b2 : FVec Ideal S64 .f32) (W3 : FVec Ideal S64x64 .f32) (b3 : FVec Ideal S64 .f32) (Wl : FVec Ideal S64x1 .f32) (bl : FVec Ideal S1 .f32) :
    FVec Ideal S64 .f32 :=
  pool batch
    (head (gs a1 (dense64 (gs a1 (dense64 (gs a1 (lin128 x W1)) (rowOf b1) W2)) (rowOf b2) W3)) (rowOf b3) Wl
      (broadcastInDim S1x1 ![1] bcast_S1_S1x1_1 bl))

end Cert.Gcn

end
-- ==== Proof.Chain.lean ====
/-
  The host operations of the idealized kernel program, stretch by stretch, as functions of the buffers they read, for
  ANY contents `V` of the buffers before the stretch. The three stretches before the first region compute, from the edge
  list, the sources and targets of the E + N messages and the column of their norms; each later stretch is one
  propagation (a gather of rows at the sources, the scale by the norms, a scatter-add into the targets) of the array the
  region before it wrote, and the next bias vector recast as a one-row matrix; the last stretch is the mean pool. Each
  stretch leaves every buffer it does not write as it was.
-/
import proofs.«110824_j62483184222290_1_alg».proof.Proof.Gen.KernelIdeal.Frame
import proofs.«110824_j62483184222290_1_alg».proof.Proof.Spec
import Idealize.ShloMosaic.Lib.StableHlo.Run

noncomputable section

namespace Cert.KernelIdeal.Chain

open Cert.KernelIdeal Cert.KernelIdeal.Gen
open Idealize.ShloMosaic Idealize.ShloMosaic.TcCoe Idealize.ShloMosaic.StableHlo Idealize.SL.Sem

variable (V : Valuation τ sig (Elt Ideal))

/-! ## Before the first region -/

set_option maxHeartbeats 2000000 in
/-- The sources of the messages. -/
theorem pre_src : after hostOps0_2 (after hostOps0_1 (after hostOps0 V)) (Proc.devRef .tc main_v3) = Cert.Gcn.srcOf (V (Proc.devRef .tc main_arg1)) := by
  dsimp only [hostOps0, hostOps0_1, hostOps0_2]; after_results_simp; rfl

set_option maxHeartbeats 2000000 in
/-- The targets of the messages. -/
theorem pre_tgt : after hostOps0_2 (after hostOps0_1 (after hostOps0 V)) (Proc.devRef .tc main_v6) = Cert.Gcn.tgtOf (V (Proc.devRef .tc main_arg1)) := by
  dsimp only [hostOps0, hostOps0_1, hostOps0_2]; after_results_simp; rfl

/-- The first stretch leaves the degrees' test, their inverse square roots and the scalar 0 the selection reads,
    and the message ends. -/
theorem pre0_pos : after hostOps0 V (Proc.devRef .tc main_v12)
    = cmpf .ogt (Cert.Gcn.degOf (V (Proc.devRef .tc main_arg1))) (broadcastInDim S50000 ![] bcast_S_S50000 Cert.Gcn.zeroS) := by
  dsimp only [hostOps0]; after_results_simp; rfl
theorem pre0_rsqrt : after hostOps0 V (Proc.devRef .tc main_v13) = Host.rsqrt (Cert.Gcn.degOf (V (Proc.devRef .tc main_arg1))) := by
  dsimp only [hostOps0]; after_results_simp; rfl
theorem pre0_zero : after hostOps0 V (Proc.devRef .tc main_cst_2) = Cert.Gcn.zeroS := by
  dsimp only [hostOps0]; after_results_simp; rfl
theorem pre0_src : after hostOps0 V (Proc.devRef .tc main_v3) = Cert.Gcn.srcOf (V (Proc.devRef .tc main_arg1)) := by
  dsimp only [hostOps0]; after_results_simp; rfl
theorem pre0_tgt : after hostOps0 V (Proc.devRef .tc main_v6) = Cert.Gcn.tgtOf (V (Proc.devRef .tc main_arg1)) := by
  dsimp only [hostOps0]; after_results_simp; rfl

/-- The second stretch is the selection: the inverse square root where the degree is positive, 0 elsewhere. -/
theorem pre1_dinv : after hostOps0_1 V (Proc.devRef .tc main_v14)
    = select (V (Proc.devRef .tc main_v12)) (V (Proc.devRef .tc main_v13)) (broadcastInDim S50000 ![] bcast_S_S50000 (id (V (Proc.devRef .tc main_cst_2)))) := by
  dsimp only [hostOps0_1]; after_results_simp; rfl
theorem pre1_keep_v3 : after hostOps0_1 V (Proc.devRef .tc main_v3) = V (Proc.devRef .tc main_v3) := by
  dsimp only [hostOps0_1]; after_results
theorem pre1_keep_v6 : after hostOps0_1 V (Proc.devRef .tc main_v6) = V (Proc.devRef .tc main_v6) := by
  dsimp only [hostOps0_1]; after_results

/-- The column of norms from the selection `dinv` and the two lists of message ends. -/
def normColAt (dinv : FVec Ideal S50000 .f32) (src tgt : IVec S850000 32) : FVec Ideal S850000x1 .f32 :=
  broadcastInDim S850000x1 ![0] bcast_S850000_S850000x1_0
    (mulf (Host.gather gather_S50000_S850000x1_S850000_n_0_n_n_0_1_1 dinv (Cert.Gcn.colOf (Cert.Gcn.wrap src)))
      (Host.gather gather_S50000_S850000x1_S850000_n_0_n_n_0_1_1 dinv (Cert.Gcn.colOf (Cert.Gcn.wrap tgt))))

set_option maxHeartbeats 2000000 in
/-- The third stretch gathers the selection at both ends of every message, multiplies, and lays the product in a column. -/
theorem pre2_ncol : after hostOps0_2 V (Proc.devRef .tc main_v30) = normColAt (V (Proc.devRef .tc main_v14)) (V (Proc.devRef .tc main_v3)) (V (Proc.devRef .tc main_v6)) := by
  dsimp only [hostOps0_2]; after_results_simp; rfl

/-- The column of the messages' norms. -/
theorem pre_ncol : after hostOps0_2 (after hostOps0_1 (after hostOps0 V)) (Proc.devRef .tc main_v30) = Cert.Gcn.normCol (V (Proc.devRef .tc main_arg1)) := by
  rw [pre2_ncol, pre1_dinv, pre1_keep_v3, pre1_keep_v6, pre0_pos, pre0_rsqrt, pre0_zero, pre0_src, pre0_tgt]
  rfl

/-- These stretches write none of the arguments. -/
theorem pre_keep_arg0 : after hostOps0_2 (after hostOps0_1 (after hostOps0 V)) (Proc.devRef .tc main_arg0) = V (Proc.devRef .tc main_arg0) := by
  dsimp only [hostOps0, hostOps0_1, hostOps0_2]; after_results
theorem pre_keep_arg2 : after hostOps0_2 (after hostOps0_1 (after hostOps0 V)) (Proc.devRef .tc main_arg2) = V (Proc.devRef .tc main_arg2) := by
  dsimp only [hostOps0, hostOps0_1, hostOps0_2]; after_results
theorem pre_keep_arg3 : after hostOps0_2 (after hostOps0_1 (after hostOps0 V)) (Proc.devRef .tc main_arg3) = V (Proc.devRef .tc main_arg3) := by
  dsimp only [hostOps0, hostOps0_1, hostOps0_2]; after_results
theorem pre_keep_arg4 : after hostOps0_2 (after hostOps0_1 (after hostOps0 V)) (Proc.devRef .tc main_arg4) = V (Proc.devRef .tc main_arg4) := by
  dsimp only [hostOps0, hostOps0_1, hostOps0_2]; after_results
theorem pre_keep_arg5 : after hostOps0_2 (after hostOps0_1 (after hostOps0 V)) (Proc.devRef .tc main_arg5) = V (Proc.devRef .tc main_arg5) := by
  dsimp only [hostOps0, hostOps0_1, hostOps0_2]; after_results
theorem pre_keep_arg6 : after hostOps0_2 (after hostOps0_1 (after hostOps0 V)) (Proc.devRef .tc main_arg6) = V (Proc.devRef .tc main_arg6) := by
  dsimp only [hostOps0, hostOps0_1, hostOps0_2]; after_results
theorem pre_keep_arg7 : after hostOps0_2 (after hostOps0_1 (after hostOps0 V)) (Proc.devRef .tc main_arg7) = V (Proc.devRef .tc main_arg7) := by
  dsimp only [hostOps0, hostOps0_1, hostOps0_2]; after_results
theorem pre_keep_arg8 : after hostOps0_2 (after hostOps0_1 (after hostOps0 V)) (Proc.devRef .tc main_arg8) = V (Proc.devRef .tc main_arg8) := by
  dsimp only [hostOps0, hostOps0_1, hostOps0_2]; after_results
theorem pre_keep_arg9 : after hostOps0_2 (after hostOps0_1 (after hostOps0 V)) (Proc.devRef .tc main_arg9) = V (Proc.devRef .tc main_arg9) := by
  dsimp only [hostOps0, hostOps0_1, hostOps0_2]; after_results
theorem pre_keep_arg10 : after hostOps0_2 (after hostOps0_1 (after hostOps0 V)) (Proc.devRef .tc main_arg10) = V (Proc.devRef .tc main_arg10) := by
  dsimp only [hostOps0, hostOps0_1, hostOps0_2]; after_results

/-! ## After region 0 -/

set_option maxHeartbeats 2000000 in
/-- One propagation of the array region 0 wrote. -/
theorem s1_agg : after hostOps1 V (Proc.devRef .tc main_v43) = Cert.Gcn.gsAt (V (Proc.devRef .tc main_v3)) (V (Proc.devRef .tc main_v6)) (V (Proc.devRef .tc main_v30)) (V (Proc.devRef .tc main_v31)) := by
  dsimp only [hostOps1]; after_results_simp; rfl

set_option maxHeartbeats 2000000 in
/-- The next bias vector as a one-row matrix. -/
theorem s1_row : after hostOps1 V (Proc.devRef .tc main_v44) = shapeCast S1x64 (V (Proc.devRef .tc main_arg4)) shapeCasts_S64_S1x64 := by
  dsimp only [hostOps1]; after_results_simp; rfl

/-- What the stretch leaves as it was. -/
theorem s1_keep_v3 : after hostOps1 V (Proc.devRef .tc main_v3) = V (Proc.devRef .tc main_v3) := by
  dsimp only [hostOps1]; after_results
theorem s1_keep_v6 : after hostOps1 V (Proc.devRef .tc main_v6) = V (Proc.devRef .tc main_v6) := by
  dsimp only [hostOps1]; after_results
theorem s1_keep_v30 : after hostOps1 V (Proc.devRef .tc main_v30) = V (Proc.devRef .tc main_v30) := by
  dsimp only [hostOps1]; after_results
theorem s1_keep_arg2 : after hostOps1 V (Proc.devRef .tc main_arg2) = V (Proc.devRef .tc main_arg2) := by
  dsimp only [hostOps1]; after_results
theorem s1_keep_arg5 : after hostOps1 V (Proc.devRef .tc main_arg5) = V (Proc.devRef .tc main_arg5) := by
  dsimp only [hostOps1]; after_results
theorem s1_keep_arg6 : after hostOps1 V (Proc.devRef .tc main_arg6) = V (Proc.devRef .tc main_arg6) := by
  dsimp only [hostOps1]; after_results
theorem s1_keep_arg7 : after hostOps1 V (Proc.devRef .tc main_arg7) = V (Proc.devRef .tc main_arg7) := by
  dsimp only [hostOps1]; after_results
theorem s1_keep_arg8 : after hostOps1 V (Proc.devRef .tc main_arg8) = V (Proc.devRef .tc main_arg8) := by
  dsimp only [hostOps1]; after_results
theorem s1_keep_arg9 : after hostOps1 V (Proc.devRef .tc main_arg9) = V (Proc.devRef .tc main_arg9) := by
  dsimp only [hostOps1]; after_results
theorem s1_keep_arg10 : after hostOps1 V (Proc.devRef .tc main_arg10) = V (Proc.devRef .tc main_arg10) := by
  dsimp only [hostOps1]; after_results

/-! ## After region 1 -/

set_option maxHeartbeats 2000000 in
/-- One propagation of the array region 1 wrote. -/
theorem s2_agg : after hostOps2 V (Proc.devRef .tc main_v57) = Cert.Gcn.gsAt (V (Proc.devRef .tc main_v3)) (V (Proc.devRef .tc main_v6)) (V (Proc.devRef .tc main_v30)) (V (Proc.devRef .tc main_v45)) := by
  dsimp only [hostOps2]; after_results_simp; rfl

set_option maxHeartbeats 2000000 in
/-- The next bias vector as a one-row matrix. -/
theorem s2_row : after hostOps2 V (Proc.devRef .tc main_v58) = shapeCast S1x64 (V (Proc.devRef .tc main_arg6)) shapeCasts_S64_S1x64 := by
  dsimp only [hostOps2]; after_results_simp; rfl

/-- What the stretch leaves as it was. -/
theorem s2_keep_v3 : after hostOps2 V (Proc.devRef .tc main_v3) = V (Proc.devRef .tc main_v3) := by
  dsimp only [hostOps2]; after_results
theorem s2_keep_v6 : after hostOps2 V (Proc.devRef .tc main_v6) = V (Proc.devRef .tc main_v6) := by
  dsimp only [hostOps2]; after_results
theorem s2_keep_v30 : after hostOps2 V (Proc.devRef .tc main_v30) = V (Proc.devRef .tc main_v30) := by
  dsimp only [hostOps2]; after_results
theorem s2_keep_arg2 : after hostOps2 V (Proc.devRef .tc main_arg2) = V (Proc.devRef .tc main_arg2) := by
  dsimp only [hostOps2]; after_results
theorem s2_keep_arg7 : after hostOps2 V (Proc.devRef .tc main_arg7) = V (Proc.devRef .tc main_arg7) := by
  dsimp only [hostOps2]; after_results
theorem s2_keep_arg8 : after hostOps2 V (Proc.devRef .tc main_arg8) = V (Proc.devRef .tc main_arg8) := by
  dsimp only [hostOps2]; after_results
theorem s2_keep_arg9 : after hostOps2 V (Proc.devRef .tc main_arg9) = V (Proc.devRef .tc main_arg9) := by
  dsimp only [hostOps2]; after_results
theorem s2_keep_arg10 : after hostOps2 V (Proc.devRef .tc main_arg10) = V (Proc.devRef .tc main_arg10) := by
  dsimp only [hostOps2]; after_results

/-! ## After region 2 -/

set_option maxHeartbeats 2000000 in
/-- One propagation of the array region 2 wrote. -/
theorem s3_agg : after hostOps3 V (Proc.devRef .tc main_v71) = Cert.Gcn.gsAt (V (Proc.devRef .tc main_v3)) (V (Proc.devRef .tc main_v6)) (V (Proc.devRef .tc main_v30)) (V (Proc.devRef .tc main_v59)) := by
  dsimp only [hostOps3]; after_results_simp; rfl

set_option maxHeartbeats 2000000 in
/-- The next bias vector as a one-row matrix. -/
theorem s3_row : after hostOps3 V (Proc.devRef .tc main_v72) = shapeCast S1x64 (V (Proc.devRef .tc main_arg8)) shapeCasts_S64_S1x64 := by
  dsimp only [hostOps3]; after_results_simp; rfl

set_option maxHeartbeats 2000000 in
/-- The head's bias as a 1×1 matrix. -/
theorem s3_bl : after hostOps3 V (Proc.devRef .tc main_v73) = shapeCast S1x1 (V (Proc.devRef .tc main_arg10)) shapeCasts_S1_S1x1 := by
  dsimp only [hostOps3]; after_results_simp; rfl

/-- What the stretch leaves as it was. -/
theorem s3_keep_arg2 : after hostOps3 V (Proc.devRef .tc main_arg2) = V (Proc.devRef .tc main_arg2) := by
  dsimp only [hostOps3]; after_results
theorem s3_keep_arg9 : after hostOps3 V (Proc.devRef .tc main_arg9) = V (Proc.devRef .tc main_arg9) := by
  dsimp only [hostOps3]; after_results

/-! ## After the last region -/

set_option maxHeartbeats 2000000 in
/-- The mean pool of the head. -/
theorem s4_out : after hostOps4 V (Proc.devRef .tc main_v85) = Cert.Gcn.pool (V (Proc.devRef .tc main_arg2)) (V (Proc.devRef .tc main_v74)) := by
  dsimp only [hostOps4]; after_results_simp; rfl

end Cert.KernelIdeal.Chain

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.Layout.lean ====
/-
  A vector of n entries as a one-row matrix, two spellings of one function: the vector recast to the shape [1, n], and
  the vector laid along axis 1 of a [1, n] matrix. Both read, at (0, t), the vector at t.
-/
import proofs.«110824_j62483184222290_1_alg».proof.Proof.LibMatDot

noncomputable section

namespace Cert.Gcn.Layout

open Idealize.ShloMosaic Idealize.ShloMosaic.ValueIdx

variable {α : Type}

/-- The recast of a vector to one row is its broadcast along axis 1 of a one-row matrix. -/
theorem shapeCast_row_eq {n : ℕ} (hc : (⟨1, ![n]⟩ : Shape).ShapeCasts ⟨2, ![1, n]⟩)
    (h1 : (⟨1, ![n]⟩ : Shape).BroadcastsInDim ⟨2, ![1, n]⟩ ![1]) (x : (⟨1, ![n]⟩ : Shape).Idx → α) :
    shapeCast ⟨2, ![1, n]⟩ x hc = broadcastInDim ⟨2, ![1, n]⟩ ![1] h1 x := by
  funext i
  obtain ⟨u, t, rfl⟩ : ∃ (u : Fin 1) (t : Fin n), i = ix2 u t := ⟨i 0, i 1, eq_ix2 i⟩
  rw [Cert.Lib.MatDot.broadcastInDim_vec_oneRow_apply h1 x u t]
  have hu : u = 0 := Subsingleton.elim _ _
  subst hu
  exact shapeCast_a_1a_apply x hc 0 t

end Cert.Gcn.Layout

end
-- ==== Proof.Fold.lean ====
/-
  The contents of the buffers of the idealized kernel program at each boundary between its segments, read back to the
  launch contents of the arguments. At the first region's entry the message ends and norms are functions of the edge
  list and every argument is as launched; a region's exit differs from its entry in its output array alone, which is the
  dense step of the arrays the region was entered with; a stretch of host operations turns that array into the next
  aggregate and carries the rest. Folding the eleven segments, the result buffer holds the network `Cert.Gcn.net` of
  the eleven argument arrays.
-/
import proofs.«110824_j62483184222290_1_alg».proof.Proof.Gen.KernelIdeal.Frame
import proofs.«110824_j62483184222290_1_alg».proof.Proof.Spec
import proofs.«110824_j62483184222290_1_alg».proof.Proof.Chain
import proofs.«110824_j62483184222290_1_alg».proof.Proof.Layout
import Idealize.ShloMosaic.Lib.StableHlo.Run

noncomputable section

namespace Cert.KernelIdeal.Fold

open Cert.KernelIdeal Cert.KernelIdeal.Gen Cert.KernelIdeal.Chain
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's entry -/

theorem at3_v3 : W3 m ρ c (Proc.devRef .tc main_v3) = Cert.Gcn.srcOf (m ((c.tc : Thread nD τ).loc main_arg1)) := pre_src (W0 m ρ c)
theorem at3_v6 : W3 m ρ c (Proc.devRef .tc main_v6) = Cert.Gcn.tgtOf (m ((c.tc : Thread nD τ).loc main_arg1)) := pre_tgt (W0 m ρ c)
theorem at3_v30 : W3 m ρ c (Proc.devRef .tc main_v30) = Cert.Gcn.normCol (m ((c.tc : Thread nD τ).loc main_arg1)) := pre_ncol (W0 m ρ c)
theorem at3_arg0 : W3 m ρ c (Proc.devRef .tc main_arg0) = m ((c.tc : Thread nD τ).loc main_arg0) := pre_keep_arg0 (W0 m ρ c)
theorem at3_arg2 : W3 m ρ c (Proc.devRef .tc main_arg2) = m ((c.tc : Thread nD τ).loc main_arg2) := pre_keep_arg2 (W0 m ρ c)
theorem at3_arg3 : W3 m ρ c (Proc.devRef .tc main_arg3) = m ((c.tc : Thread nD τ).loc main_arg3) := pre_keep_arg3 (W0 m ρ c)
theorem at3_arg4 : W3 m ρ c (Proc.devRef .tc main_arg4) = m ((c.tc : Thread nD τ).loc main_arg4) := pre_keep_arg4 (W0 m ρ c)
theorem at3_arg5 : W3 m ρ c (Proc.devRef .tc main_arg5) = m ((c.tc : Thread nD τ).loc main_arg5) := pre_keep_arg5 (W0 m ρ c)
theorem at3_arg6 : W3 m ρ c (Proc.devRef .tc main_arg6) = m ((c.tc : Thread nD τ).loc main_arg6) := pre_keep_arg6 (W0 m ρ c)
theorem at3_arg7 : W3 m ρ c (Proc.devRef .tc main_arg7) = m ((c.tc : Thread nD τ).loc main_arg7) := pre_keep_arg7 (W0 m ρ c)
theorem at3_arg8 : W3 m ρ c (Proc.devRef .tc main_arg8) = m ((c.tc : Thread nD τ).loc main_arg8) := pre_keep_arg8 (W0 m ρ c)
theorem at3_arg9 : W3 m ρ c (Proc.devRef .tc main_arg9) = m ((c.tc : Thread nD τ).loc main_arg9) := pre_keep_arg9 (W0 m ρ c)
theorem at3_arg10 : W3 m ρ c (Proc.devRef .tc main_arg10) = m ((c.tc : Thread nD τ).loc main_arg10) := pre_keep_arg10 (W0 m ρ c)

/-! ## The four regions' arrays, as hypotheses

What each region leaves in its output array, as a function of the arrays it is entered with, for any entry contents:
the statements of the region modules, taken here as hypotheses so that this module reads the fold alone. -/

variable
  (H0 : ∀ (V : (c : Dev nD) → (b : Ref sig .tc) → Buf (Elt Ideal) ((c : Thread nD τ).loc b)) (c : Dev nD),
    (dat0 (F := Ideal) V c).arrAt 2 cfg0.N = Cert.Gcn.lin128 (V c main_arg0) (V c main_arg3))
  (H1 : ∀ (V : (c : Dev nD) → (b : Ref sig .tc) → Buf (Elt Ideal) ((c : Thread nD τ).loc b)) (c : Dev nD),
    (dat1 (F := Ideal) V c).arrAt 3 cfg1.N = Cert.Gcn.dense64 (V c main_v43) (V c main_v44) (V c main_arg5))
  (H2 : ∀ (V : (c : Dev nD) → (b : Ref sig .tc) → Buf (Elt Ideal) ((c : Thread nD τ).loc b)) (c : Dev nD),
    (dat2 (F := Ideal) V c).arrAt 3 cfg2.N = Cert.Gcn.dense64 (V c main_v57) (V c main_v58) (V c main_arg7))
  (H3 : ∀ (V : (c : Dev nD) → (b : Ref sig .tc) → Buf (Elt Ideal) ((c : Thread nD τ).loc b)) (c : Dev nD),
    (dat3 (F := Ideal) V c).arrAt 4 cfg3.N = Cert.Gcn.head (V c main_v71) (V c main_v72) (V c main_arg9) (V c main_v73))
include H0 H1 H2 H3

/-! ## At region 0's exit -/

theorem at4_v3 : W4 m ρ c (Proc.devRef .tc main_v3) = Cert.Gcn.srcOf (m ((c.tc : Thread nD τ).loc main_arg1)) := (W4_of_ne m ρ c main_v3 (by decide)).trans (at3_v3 m ρ c)
theorem at4_v6 : W4 m ρ c (Proc.devRef .tc main_v6) = Cert.Gcn.tgtOf (m ((c.tc : Thread nD τ).loc main_arg1)) := (W4_of_ne m ρ c main_v6 (by decide)).trans (at3_v6 m ρ c)
theorem at4_v30 : W4 m ρ c (Proc.devRef .tc main_v30) = Cert.Gcn.normCol (m ((c.tc : Thread nD τ).loc main_arg1)) := (W4_of_ne m ρ c main_v30 (by decide)).trans (at3_v30 m ρ c)
theorem at4_arg2 : W4 m ρ c (Proc.devRef .tc main_arg2) = m ((c.tc : Thread nD τ).loc main_arg2) := (W4_of_ne m ρ c main_arg2 (by decide)).trans (at3_arg2 m ρ c)
theorem at4_arg4 : W4 m ρ c (Proc.devRef .tc main_arg4) = m ((c.tc : Thread nD τ).loc main_arg4) := (W4_of_ne m ρ c main_arg4 (by decide)).trans (at3_arg4 m ρ c)
theorem at4_arg5 : W4 m ρ c (Proc.devRef .tc main_arg5) = m ((c.tc : Thread nD τ).loc main_arg5) := (W4_of_ne m ρ c main_arg5 (by decide)).trans (at3_arg5 m ρ c)
theorem at4_arg6 : W4 m ρ c (Proc.devRef .tc main_arg6) = m ((c.tc : Thread nD τ).loc main_arg6) := (W4_of_ne m ρ c main_arg6 (by decide)).trans (at3_arg6 m ρ c)
theorem at4_arg7 : W4 m ρ c (Proc.devRef .tc main_arg7) = m ((c.tc : Thread nD τ).loc main_arg7) := (W4_of_ne m ρ c main_arg7 (by decide)).trans (at3_arg7 m ρ c)
theorem at4_arg8 : W4 m ρ c (Proc.devRef .tc main_arg8) = m ((c.tc : Thread nD τ).loc main_arg8) := (W4_of_ne m ρ c main_arg8 (by decide)).trans (at3_arg8 m ρ c)
theorem at4_arg9 : W4 m ρ c (Proc.devRef .tc main_arg9) = m ((c.tc : Thread nD τ).loc main_arg9) := (W4_of_ne m ρ c main_arg9 (by decide)).trans (at3_arg9 m ρ c)
theorem at4_arg10 : W4 m ρ c (Proc.devRef .tc main_arg10) = m ((c.tc : Thread nD τ).loc main_arg10) := (W4_of_ne m ρ c main_arg10 (by decide)).trans (at3_arg10 m ρ c)
/-- The array region 0 wrote. -/
theorem at4_v31 : W4 m ρ c (Proc.devRef .tc main_v31) = Cert.Gcn.lin128 (m ((c.tc : Thread nD τ).loc main_arg0)) (m ((c.tc : Thread nD τ).loc main_arg3)) :=
  (W4_arr m ρ c 2).trans ((H0 (V3 m ρ) c).trans (by
    rw [show V3 m ρ c main_arg0 = _ from at3_arg0 m ρ c,
      show V3 m ρ c main_arg3 = _ from at3_arg3 m ρ c]))

/-! ## At region 1's entry -/

theorem at5_v3 : W5 m ρ c (Proc.devRef .tc main_v3) = Cert.Gcn.srcOf (m ((c.tc : Thread nD τ).loc main_arg1)) := (s1_keep_v3 (W4 m ρ c)).trans (at4_v3 m ρ c H0 H1 H2 H3)
theorem at5_v6 : W5 m ρ c (Proc.devRef .tc main_v6) = Cert.Gcn.tgtOf (m ((c.tc : Thread nD τ).loc main_arg1)) := (s1_keep_v6 (W4 m ρ c)).trans (at4_v6 m ρ c H0 H1 H2 H3)
theorem at5_v30 : W5 m ρ c (Proc.devRef .tc main_v30) = Cert.Gcn.normCol (m ((c.tc : Thread nD τ).loc main_arg1)) := (s1_keep_v30 (W4 m ρ c)).trans (at4_v30 m ρ c H0 H1 H2 H3)
theorem at5_arg2 : W5 m ρ c (Proc.devRef .tc main_arg2) = m ((c.tc : Thread nD τ).loc main_arg2) := (s1_keep_arg2 (W4 m ρ c)).trans (at4_arg2 m ρ c H0 H1 H2 H3)
theorem at5_arg5 : W5 m ρ c (Proc.devRef .tc main_arg5) = m ((c.tc : Thread nD τ).loc main_arg5) := (s1_keep_arg5 (W4 m ρ c)).trans (at4_arg5 m ρ c H0 H1 H2 H3)
theorem at5_arg6 : W5 m ρ c (Proc.devRef .tc main_arg6) = m ((c.tc : Thread nD τ).loc main_arg6) := (s1_keep_arg6 (W4 m ρ c)).trans (at4_arg6 m ρ c H0 H1 H2 H3)
theorem at5_arg7 : W5 m ρ c (Proc.devRef .tc main_arg7) = m ((c.tc : Thread nD τ).loc main_arg7) := (s1_keep_arg7 (W4 m ρ c)).trans (at4_arg7 m ρ c H0 H1 H2 H3)
theorem at5_arg8 : W5 m ρ c (Proc.devRef .tc main_arg8) = m ((c.tc : Thread nD τ).loc main_arg8) := (s1_keep_arg8 (W4 m ρ c)).trans (at4_arg8 m ρ c H0 H1 H2 H3)
theorem at5_arg9 : W5 m ρ c (Proc.devRef .tc main_arg9) = m ((c.tc : Thread nD τ).loc main_arg9) := (s1_keep_arg9 (W4 m ρ c)).trans (at4_arg9 m ρ c H0 H1 H2 H3)
theorem at5_arg10 : W5 m ρ c (Proc.devRef .tc main_arg10) = m ((c.tc : Thread nD τ).loc main_arg10) := (s1_keep_arg10 (W4 m ρ c)).trans (at4_arg10 m ρ c H0 H1 H2 H3)
/-- The propagated array. -/
theorem at5_v43 : W5 m ρ c (Proc.devRef .tc main_v43) = Cert.Gcn.gs (m ((c.tc : Thread nD τ).loc main_arg1)) (Cert.Gcn.lin128 (m ((c.tc : Thread nD τ).loc main_arg0)) (m ((c.tc : Thread nD τ).loc main_arg3))) :=
  (s1_agg (W4 m ρ c)).trans (by rw [at4_v3 m ρ c H0 H1 H2 H3, at4_v6 m ρ c H0 H1 H2 H3, at4_v30 m ρ c H0 H1 H2 H3, at4_v31 m ρ c H0 H1 H2 H3]; rfl)
theorem at5_v44 : W5 m ρ c (Proc.devRef .tc main_v44) = shapeCast S1x64 (m ((c.tc : Thread nD τ).loc main_arg4)) shapeCasts_S64_S1x64 := (s1_row (W4 m ρ c)).trans (by rw [at4_arg4 m ρ c H0 H1 H2 H3])

/-! ## At region 1's exit -/

theorem at6_v3 : W6 m ρ c (Proc.devRef .tc main_v3) = Cert.Gcn.srcOf (m ((c.tc : Thread nD τ).loc main_arg1)) := (W6_of_ne m ρ c main_v3 (by decide)).trans (at5_v3 m ρ c H0 H1 H2 H3)
theorem at6_v6 : W6 m ρ c (Proc.devRef .tc main_v6) = Cert.Gcn.tgtOf (m ((c.tc : Thread nD τ).loc main_arg1)) := (W6_of_ne m ρ c main_v6 (by decide)).trans (at5_v6 m ρ c H0 H1 H2 H3)
theorem at6_v30 : W6 m ρ c (Proc.devRef .tc main_v30) = Cert.Gcn.normCol (m ((c.tc : Thread nD τ).loc main_arg1)) := (W6_of_ne m ρ c main_v30 (by decide)).trans (at5_v30 m ρ c H0 H1 H2 H3)
theorem at6_arg2 : W6 m ρ c (Proc.devRef .tc main_arg2) = m ((c.tc : Thread nD τ).loc main_arg2) := (W6_of_ne m ρ c main_arg2 (by decide)).trans (at5_arg2 m ρ c H0 H1 H2 H3)
theorem at6_arg6 : W6 m ρ c (Proc.devRef .tc main_arg6) = m ((c.tc : Thread nD τ).loc main_arg6) := (W6_of_ne m ρ c main_arg6 (by decide)).trans (at5_arg6 m ρ c H0 H1 H2 H3)
theorem at6_arg7 : W6 m ρ c (Proc.devRef .tc main_arg7) = m ((c.tc : Thread nD τ).loc main_arg7) := (W6_of_ne m ρ c main_arg7 (by decide)).trans (at5_arg7 m ρ c H0 H1 H2 H3)
theorem at6_arg8 : W6 m ρ c (Proc.devRef .tc main_arg8) = m ((c.tc : Thread nD τ).loc main_arg8) := (W6_of_ne m ρ c main_arg8 (by decide)).trans (at5_arg8 m ρ c H0 H1 H2 H3)
theorem at6_arg9 : W6 m ρ c (Proc.devRef .tc main_arg9) = m ((c.tc : Thread nD τ).loc main_arg9) := (W6_of_ne m ρ c main_arg9 (by decide)).trans (at5_arg9 m ρ c H0 H1 H2 H3)
theorem at6_arg10 : W6 m ρ c (Proc.devRef .tc main_arg10) = m ((c.tc : Thread nD τ).loc main_arg10) := (W6_of_ne m ρ c main_arg10 (by decide)).trans (at5_arg10 m ρ c H0 H1 H2 H3)
/-- The array region 1 wrote. -/
theorem at6_v45 : W6 m ρ c (Proc.devRef .tc main_v45) = Cert.Gcn.dense64 (Cert.Gcn.gs (m ((c.tc : Thread nD τ).loc main_arg1)) (Cert.Gcn.lin128 (m ((c.tc : Thread nD τ).loc main_arg0)) (m ((c.tc : Thread nD τ).loc main_arg3)))) (shapeCast S1x64 (m ((c.tc : Thread nD τ).loc main_arg4)) shapeCasts_S64_S1x64) (m ((c.tc : Thread nD τ).loc main_arg5)) :=
  (W6_arr m ρ c 3).trans ((H1 (V5 m ρ) c).trans (by
    rw [show V5 m ρ c main_v43 = _ from at5_v43 m ρ c H0 H1 H2 H3,
      show V5 m ρ c main_v44 = _ from at5_v44 m ρ c H0 H1 H2 H3,
      show V5 m ρ c main_arg5 = _ from at5_arg5 m ρ c H0 H1 H2 H3]))

/-! ## At region 2's entry -/

theorem at7_v3 : W7 m ρ c (Proc.devRef .tc main_v3) = Cert.Gcn.srcOf (m ((c.tc : Thread nD τ).loc main_arg1)) := (s2_keep_v3 (W6 m ρ c)).trans (at6_v3 m ρ c H0 H1 H2 H3)
theorem at7_v6 : W7 m ρ c (Proc.devRef .tc main_v6) = Cert.Gcn.tgtOf (m ((c.tc : Thread nD τ).loc main_arg1)) := (s2_keep_v6 (W6 m ρ c)).trans (at6_v6 m ρ c H0 H1 H2 H3)
theorem at7_v30 : W7 m ρ c (Proc.devRef .tc main_v30) = Cert.Gcn.normCol (m ((c.tc : Thread nD τ).loc main_arg1)) := (s2_keep_v30 (W6 m ρ c)).trans (at6_v30 m ρ c H0 H1 H2 H3)
theorem at7_arg2 : W7 m ρ c (Proc.devRef .tc main_arg2) = m ((c.tc : Thread nD τ).loc main_arg2) := (s2_keep_arg2 (W6 m ρ c)).trans (at6_arg2 m ρ c H0 H1 H2 H3)
theorem at7_arg7 : W7 m ρ c (Proc.devRef .tc main_arg7) = m ((c.tc : Thread nD τ).loc main_arg7) := (s2_keep_arg7 (W6 m ρ c)).trans (at6_arg7 m ρ c H0 H1 H2 H3)
theorem at7_arg8 : W7 m ρ c (Proc.devRef .tc main_arg8) = m ((c.tc : Thread nD τ).loc main_arg8) := (s2_keep_arg8 (W6 m ρ c)).trans (at6_arg8 m ρ c H0 H1 H2 H3)
theorem at7_arg9 : W7 m ρ c (Proc.devRef .tc main_arg9) = m ((c.tc : Thread nD τ).loc main_arg9) := (s2_keep_arg9 (W6 m ρ c)).trans (at6_arg9 m ρ c H0 H1 H2 H3)
theorem at7_arg10 : W7 m ρ c (Proc.devRef .tc main_arg10) = m ((c.tc : Thread nD τ).loc main_arg10) := (s2_keep_arg10 (W6 m ρ c)).trans (at6_arg10 m ρ c H0 H1 H2 H3)
/-- The propagated array. -/
theorem at7_v57 : W7 m ρ c (Proc.devRef .tc main_v57) = Cert.Gcn.gs (m ((c.tc : Thread nD τ).loc main_arg1)) (Cert.Gcn.dense64 (Cert.Gcn.gs (m ((c.tc : Thread nD τ).loc main_arg1)) (Cert.Gcn.lin128 (m ((c.tc : Thread nD τ).loc main_arg0)) (m ((c.tc : Thread nD τ).loc main_arg3)))) (shapeCast S1x64 (m ((c.tc : Thread nD τ).loc main_arg4)) shapeCasts_S64_S1x64) (m ((c.tc : Thread nD τ).loc main_arg5))) :=
  (s2_agg (W6 m ρ c)).trans (by rw [at6_v3 m ρ c H0 H1 H2 H3, at6_v6 m ρ c H0 H1 H2 H3, at6_v30 m ρ c H0 H1 H2 H3, at6_v45 m ρ c H0 H1 H2 H3]; rfl)
theorem at7_v58 : W7 m ρ c (Proc.devRef .tc main_v58) = shapeCast S1x64 (m ((c.tc : Thread nD τ).loc main_arg6)) shapeCasts_S64_S1x64 := (s2_row (W6 m ρ c)).trans (by rw [at6_arg6 m ρ c H0 H1 H2 H3])

/-! ## At region 2's exit -/

theorem at8_v3 : W8 m ρ c (Proc.devRef .tc main_v3) = Cert.Gcn.srcOf (m ((c.tc : Thread nD τ).loc main_arg1)) := (W8_of_ne m ρ c main_v3 (by decide)).trans (at7_v3 m ρ c H0 H1 H2 H3)
theorem at8_v6 : W8 m ρ c (Proc.devRef .tc main_v6) = Cert.Gcn.tgtOf (m ((c.tc : Thread nD τ).loc main_arg1)) := (W8_of_ne m ρ c main_v6 (by decide)).trans (at7_v6 m ρ c H0 H1 H2 H3)
theorem at8_v30 : W8 m ρ c (Proc.devRef .tc main_v30) = Cert.Gcn.normCol (m ((c.tc : Thread nD τ).loc main_arg1)) := (W8_of_ne m ρ c main_v30 (by decide)).trans (at7_v30 m ρ c H0 H1 H2 H3)
theorem at8_arg2 : W8 m ρ c (Proc.devRef .tc main_arg2) = m ((c.tc : Thread nD τ).loc main_arg2) := (W8_of_ne m ρ c main_arg2 (by decide)).trans (at7_arg2 m ρ c H0 H1 H2 H3)
theorem at8_arg8 : W8 m ρ c (Proc.devRef .tc main_arg8) = m ((c.tc : Thread nD τ).loc main_arg8) := (W8_of_ne m ρ c main_arg8 (by decide)).trans (at7_arg8 m ρ c H0 H1 H2 H3)
theorem at8_arg9 : W8 m ρ c (Proc.devRef .tc main_arg9) = m ((c.tc : Thread nD τ).loc main_arg9) := (W8_of_ne m ρ c main_arg9 (by decide)).trans (at7_arg9 m ρ c H0 H1 H2 H3)
theorem at8_arg10 : W8 m ρ c (Proc.devRef .tc main_arg10) = m ((c.tc : Thread nD τ).loc main_arg10) := (W8_of_ne m ρ c main_arg10 (by decide)).trans (at7_arg10 m ρ c H0 H1 H2 H3)
/-- The array region 2 wrote. -/
theorem at8_v59 : W8 m ρ c (Proc.devRef .tc main_v59) = Cert.Gcn.dense64 (Cert.Gcn.gs (m ((c.tc : Thread nD τ).loc main_arg1)) (Cert.Gcn.dense64 (Cert.Gcn.gs (m ((c.tc : Thread nD τ).loc main_arg1)) (Cert.Gcn.lin128 (m ((c.tc : Thread nD τ).loc main_arg0)) (m ((c.tc : Thread nD τ).loc main_arg3)))) (shapeCast S1x64 (m ((c.tc : Thread nD τ).loc main_arg4)) shapeCasts_S64_S1x64) (m ((c.tc : Thread nD τ).loc main_arg5)))) (shapeCast S1x64 (m ((c.tc : Thread nD τ).loc main_arg6)) shapeCasts_S64_S1x64) (m ((c.tc : Thread nD τ).loc main_arg7)) :=
  (W8_arr m ρ c 3).trans ((H2 (V7 m ρ) c).trans (by
    rw [show V7 m ρ c main_v57 = _ from at7_v57 m ρ c H0 H1 H2 H3,
      show V7 m ρ c main_v58 = _ from at7_v58 m ρ c H0 H1 H2 H3,
      show V7 m ρ c main_arg7 = _ from at7_arg7 m ρ c H0 H1 H2 H3]))

/-! ## At region 3's entry -/

theorem at9_arg2 : W9 m ρ c (Proc.devRef .tc main_arg2) = m ((c.tc : Thread nD τ).loc main_arg2) := (s3_keep_arg2 (W8 m ρ c)).trans (at8_arg2 m ρ c H0 H1 H2 H3)
theorem at9_arg9 : W9 m ρ c (Proc.devRef .tc main_arg9) = m ((c.tc : Thread nD τ).loc main_arg9) := (s3_keep_arg9 (W8 m ρ c)).trans (at8_arg9 m ρ c H0 H1 H2 H3)
/-- The propagated array. -/
theorem at9_v71 : W9 m ρ c (Proc.devRef .tc main_v71) = Cert.Gcn.gs (m ((c.tc : Thread nD τ).loc main_arg1)) (Cert.Gcn.dense64 (Cert.Gcn.gs (m ((c.tc : Thread nD τ).loc main_arg1)) (Cert.Gcn.dense64 (Cert.Gcn.gs (m ((c.tc : Thread nD τ).loc main_arg1)) (Cert.Gcn.lin128 (m ((c.tc : Thread nD τ).loc main_arg0)) (m ((c.tc : Thread nD τ).loc main_arg3)))) (shapeCast S1x64 (m ((c.tc : Thread nD τ).loc main_arg4)) shapeCasts_S64_S1x64) (m ((c.tc : Thread nD τ).loc main_arg5)))) (shapeCast S1x64 (m ((c.tc : Thread nD τ).loc main_arg6)) shapeCasts_S64_S1x64) (m ((c.tc : Thread nD τ).loc main_arg7))) :=
  (s3_agg (W8 m ρ c)).trans (by rw [at8_v3 m ρ c H0 H1 H2 H3, at8_v6 m ρ c H0 H1 H2 H3, at8_v30 m ρ c H0 H1 H2 H3, at8_v59 m ρ c H0 H1 H2 H3]; rfl)
theorem at9_v72 : W9 m ρ c (Proc.devRef .tc main_v72) = shapeCast S1x64 (m ((c.tc : Thread nD τ).loc main_arg8)) shapeCasts_S64_S1x64 := (s3_row (W8 m ρ c)).trans (by rw [at8_arg8 m ρ c H0 H1 H2 H3])
theorem at9_v73 : W9 m ρ c (Proc.devRef .tc main_v73) = shapeCast S1x1 (m ((c.tc : Thread nD τ).loc main_arg10)) shapeCasts_S1_S1x1 := (s3_bl (W8 m ρ c)).trans (by rw [at8_arg10 m ρ c H0 H1 H2 H3])

/-! ## At region 3's exit -/

theorem at10_arg2 : W10 m ρ c (Proc.devRef .tc main_arg2) = m ((c.tc : Thread nD τ).loc main_arg2) := (W10_of_ne m ρ c main_arg2 (by decide)).trans (at9_arg2 m ρ c H0 H1 H2 H3)
/-- The array region 3 wrote. -/
theorem at10_v74 : W10 m ρ c (Proc.devRef .tc main_v74) = Cert.Gcn.head (Cert.Gcn.gs (m ((c.tc : Thread nD τ).loc main_arg1)) (Cert.Gcn.dense64 (Cert.Gcn.gs (m ((c.tc : Thread nD τ).loc main_arg1)) (Cert.Gcn.dense64 (Cert.Gcn.gs (m ((c.tc : Thread nD τ).loc main_arg1)) (Cert.Gcn.lin128 (m ((c.tc : Thread nD τ).loc main_arg0)) (m ((c.tc : Thread nD τ).loc main_arg3)))) (shapeCast S1x64 (m ((c.tc : Thread nD τ).loc main_arg4)) shapeCasts_S64_S1x64) (m ((c.tc : Thread nD τ).loc main_arg5)))) (shapeCast S1x64 (m ((c.tc : Thread nD τ).loc main_arg6)) shapeCasts_S64_S1x64) (m ((c.tc : Thread nD τ).loc main_arg7)))) (shapeCast S1x64 (m ((c.tc : Thread nD τ).loc main_arg8)) shapeCasts_S64_S1x64) (m ((c.tc : Thread nD τ).loc main_arg9)) (shapeCast S1x1 (m ((c.tc : Thread nD τ).loc main_arg10)) shapeCasts_S1_S1x1) :=
  (W10_arr m ρ c 4).trans ((H3 (V9 m ρ) c).trans (by
    rw [show V9 m ρ c main_v71 = _ from at9_v71 m ρ c H0 H1 H2 H3,
      show V9 m ρ c main_v72 = _ from at9_v72 m ρ c H0 H1 H2 H3,
      show V9 m ρ c main_arg9 = _ from at9_arg9 m ρ c H0 H1 H2 H3,
      show V9 m ρ c main_v73 = _ from at9_v73 m ρ c H0 H1 H2 H3]))

/-! ## The result -/

/-- The result buffer at the last boundary: the mean pool of the head. -/
theorem at11_v85 : W11 m ρ c (Proc.devRef .tc main_v85) = Cert.Gcn.pool (m ((c.tc : Thread nD τ).loc main_arg2)) (Cert.Gcn.head (Cert.Gcn.gs (m ((c.tc : Thread nD τ).loc main_arg1)) (Cert.Gcn.dense64 (Cert.Gcn.gs (m ((c.tc : Thread nD τ).loc main_arg1)) (Cert.Gcn.dense64 (Cert.Gcn.gs (m ((c.tc : Thread nD τ).loc main_arg1)) (Cert.Gcn.lin128 (m ((c.tc : Thread nD τ).loc main_arg0)) (m ((c.tc : Thread nD τ).loc main_arg3)))) (shapeCast S1x64 (m ((c.tc : Thread nD τ).loc main_arg4)) shapeCasts_S64_S1x64) (m ((c.tc : Thread nD τ).loc main_arg5)))) (shapeCast S1x64 (m ((c.tc : Thread nD τ).loc main_arg6)) shapeCasts_S64_S1x64) (m ((c.tc : Thread nD τ).loc main_arg7)))) (shapeCast S1x64 (m ((c.tc : Thread nD τ).loc main_arg8)) shapeCasts_S64_S1x64) (m ((c.tc : Thread nD τ).loc main_arg9)) (shapeCast S1x1 (m ((c.tc : Thread nD τ).loc main_arg10)) shapeCasts_S1_S1x1)) :=
  (s4_out (W10 m ρ c)).trans (by rw [at10_arg2 m ρ c H0 H1 H2 H3, at10_v74 m ρ c H0 H1 H2 H3])

/-- The result buffer at the last boundary is the network of the launch contents of the arguments: a bias vector recast
    as a one-row matrix is the one-row broadcast of it. -/
theorem result_eq : W11 m ρ c (Proc.devRef .tc main_v85) = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [at11_v85 m ρ c H0 H1 H2 H3]
  rw [Cert.Gcn.Layout.shapeCast_row_eq shapeCasts_S64_S1x64 Cert.ReferenceIdeal.Gen.bcast_S64_S1x64_1,
    Cert.Gcn.Layout.shapeCast_row_eq shapeCasts_S64_S1x64 Cert.ReferenceIdeal.Gen.bcast_S64_S1x64_1,
    Cert.Gcn.Layout.shapeCast_row_eq shapeCasts_S64_S1x64 Cert.ReferenceIdeal.Gen.bcast_S64_S1x64_1,
    Cert.Gcn.Layout.shapeCast_row_eq shapeCasts_S1_S1x1 Cert.ReferenceIdeal.Gen.bcast_S1_S1x1_1]
  rfl

end Cert.KernelIdeal.Fold

end
-- ==== Proof.RegionElu.lean ====
/-
  The exponential linear unit on the extended reals, in the two spellings the programs use.

  The vector unit computes  elu t = t  where t > 0  and  exp t − 1  elsewhere.
  The host computes  t  where t > 0  and  1 · (exp s − 1)  elsewhere, with  s = 0  where t > 0  and  s = t  elsewhere
  (the exponential is taken of 0 where its value is not read). Where t > 0 both are t; elsewhere s = t and 1 · x = x:
  the two are one function, with no condition on t.
-/
import Idealize.ShloMosaic.PureOps.Ideal.Laws
import Idealize.ShloMosaic.Lib.ValueIdx
import Idealize.ShloMosaic.Lib.IdealHost

noncomputable section

namespace Cert.KernelIdeal.RegionValue

open Idealize.ShloMosaic Idealize.ShloMosaic.ValueIdx

/-- elu t = t where t > 0, and exp t − 1 elsewhere (the zero and the one as the words the programs write). -/
def elu (t : EReal) : EReal :=
  Scalar.select (Ideal.cmp .ogt t (Ideal.ofBits .f32 0x00000000#32)) t (Ideal.exp t - Ideal.ofBits .f32 0x3F800000#32)

/-- The host's spelling is the same function. -/
theorem host_eq (t : EReal) :
    Scalar.select (Ideal.cmp .ogt t (Ideal.ofBits .f32 0x00000000#32)) t
        (Ideal.ofBits .f32 0x3F800000#32 *
          (Ideal.exp (Scalar.select (Ideal.cmp .ogt t (Ideal.ofBits .f32 0x00000000#32)) (Ideal.ofBits .f32 0x00000000#32) t) - 1))
      = elu t := by
  unfold elu
  rcases BitVec.eq_zero_or_eq_one (Ideal.cmp .ogt t (Ideal.ofBits .f32 0x00000000#32)) with h | h
  · rw [h, select_zero, select_zero, select_zero, Ideal.ofBits_one_f32, one_mul]
  · rw [h, select_one, select_one]

end Cert.KernelIdeal.RegionValue

end
-- ==== Proof.RegionPay.lean ====
/-
  What each region's body computes from the blocks it loads, read at one entry of the block it stores, on the
  extended reals (where a change of float format is the identity and the matrix unit's product into a zero
  accumulator is the plain sum of products).

  Region 0, from a 5000×128 block x and the 128×64 weights W:      entry (p, q) is  ∑ k, x (p, k) · W (k, q).
  Regions 1 and 2, from a 5000×64 block a, a one-row bias b and 64×64 weights W:
                                                                    entry (p, q) is  ∑ k, elu (a (p, k) + b (0, k)) · W (k, q).
  Region 3, the same with 64×1 weights and a 1×1 bias c added:      entry (p, q) is  (∑ k, elu (a (p, k) + b (0, k)) · W (k, q)) + c (0, q).
-/
import proofs.«110824_j62483184222290_1_alg».proof.Proof.Gen.KernelIdeal.Skeleton
import proofs.«110824_j62483184222290_1_alg».proof.Proof.RegionElu
import proofs.«110824_j62483184222290_1_alg».proof.Proof.LibMatDot

noncomputable section

open scoped BigOperators

namespace Cert.KernelIdeal.RegionValue

open Cert.KernelIdeal Cert.KernelIdeal.Gen Idealize.ShloMosaic Idealize.ShloMosaic.ValueIdx

/-- The zero offsets of a whole-buffer access, as the constant function. -/
theorem zero2 : (![0, 0] : Fin 2 → Nat) = fun _ => 0 := funext fun a => by fin_cases a <;> rfl

/-- Region 0's block: the product of the loaded rows by the weights. -/
theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.Lib.MatDot.matmul_zero_apply dot_S5000x128_S128x64_S5000x64_1_0_0_1_n_n_wf none _ _ p q

/-- The activated block of regions 1, 2 and 3 at an entry: the bias row added, then elu. -/
theorem act_apply (x0 : Vec Ideal S5000x64 .f32) (x1 : Vec Ideal S1x64 .f32) (p : Fin 5000) (k : Fin 64) :
    (select
        (cmpf .ogt
          (addf (shapeCast S5000x64 x0 shapeCasts_S5000x64_S5000x64)
            (broadcastTo S5000x64 (shapeCast S1x64 x1 shapeCasts_S1x64_S1x64) broadcasts_S1x64_S5000x64))
          (broadcast S5000x64 (Scalar.ofBits (F := Ideal) .f32 0x00000000#32)))
        (addf (shapeCast S5000x64 x0 shapeCasts_S5000x64_S5000x64)
          (broadcastTo S5000x64 (shapeCast S1x64 x1 shapeCasts_S1x64_S1x64) broadcasts_S1x64_S5000x64))
        (subf
          (exp (addf (shapeCast S5000x64 x0 shapeCasts_S5000x64_S5000x64)
            (broadcastTo S5000x64 (shapeCast S1x64 x1 shapeCasts_S1x64_S1x64) broadcasts_S1x64_S5000x64)))
          (broadcast S5000x64 (Scalar.ofBits (F := Ideal) .f32 0x3F800000#32))) : FVec Ideal S5000x64 .f32) (ix2 p k)
      = elu (x0 (ix2 p k) + x1 (ix2 (0 : Fin 1) k)) := by
  show elu (shapeCast S5000x64 x0 shapeCasts_S5000x64_S5000x64 (ix2 p k)
      + broadcastTo S5000x64 (shapeCast S1x64 x1 shapeCasts_S1x64_S1x64) broadcasts_S1x64_S5000x64 (ix2 p k)) = _
  rw [shapeCast_self, shapeCast_self, broadcastTo_1b_ab_apply]

/-- Region 1's block. -/
theorem pay1_apply (x0 : Vec Ideal S5000x64 .f32) (x1 : Vec Ideal S1x64 .f32) (x2 : Vec Ideal S64x64 .f32) (p : Fin 5000) (q : Fin 64) :
    k1_pay1 (F := Ideal) x0 x1 x2 (ix2 p q) = ∑ k : Fin 64, elu (x0 (ix2 p k) + x1 (ix2 (0 : Fin 1) k)) * x2 (ix2 k q) := by
  unfold k1_pay1
  refine (Cert.Lib.MatDot.matmul_zero_apply dot_S5000x64_S64x64_S5000x64_1_0_0_1_n_n_wf none _ _ p q).trans ?_
  refine Finset.sum_congr rfl fun k _ => ?_
  exact congrArg (· * x2 (ix2 k q)) (act_apply x0 x1 p k)

/-- Region 2's block: the same body. -/
theorem pay2_apply (x0 : Vec Ideal S5000x64 .f32) (x1 : Vec Ideal S1x64 .f32) (x2 : Vec Ideal S64x64 .f32) (p : Fin 5000) (q : Fin 64) :
    k2_pay1 (F := Ideal) x0 x1 x2 (ix2 p q) = ∑ k : Fin 64, elu (x0 (ix2 p k) + x1 (ix2 (0 : Fin 1) k)) * x2 (ix2 k q) := by
  unfold k2_pay1
  refine (Cert.Lib.MatDot.matmul_zero_apply dot_S5000x64_S64x64_S5000x64_1_0_0_1_n_n_wf none _ _ p q).trans ?_
  refine Finset.sum_congr rfl fun k _ => ?_
  exact congrArg (· * x2 (ix2 k q)) (act_apply x0 x1 p k)

/-- Region 3's block: the product by the 64×1 weights, then the 1×1 bias added to every row. -/
theorem pay3_apply (x0 : Vec Ideal S5000x64 .f32) (x1 : Vec Ideal S1x64 .f32) (x2 : Vec Ideal S64x1 .f32) (x3 : Vec Ideal S1x1 .f32)
    (p : Fin 5000) (q : Fin 1) :
    k3_pay1 (F := Ideal) x0 x1 x2 x3 (ix2 p q)
      = (∑ k : Fin 64, elu (x0 (ix2 p k) + x1 (ix2 (0 : Fin 1) k)) * x2 (ix2 k q)) + x3 (ix2 (0 : Fin 1) q) := by
  unfold k3_pay1
  refine (addf_apply _ _ (ix2 p q)).trans ?_
  refine congrArg₂ (· + ·) ?_ ?_
  · refine (Cert.Lib.MatDot.matmul_zero_apply dot_S5000x64_S64x1_S5000x1_1_0_0_1_n_n_wf none _ _ p q).trans ?_
    refine Finset.sum_congr rfl fun k _ => ?_
    exact congrArg (· * x2 (ix2 k q)) (act_apply x0 x1 p k)
  · rw [shapeCast_self, broadcastTo_1b_ab_apply]

end Cert.KernelIdeal.RegionValue

end
-- ==== Proof.RegionSpec.lean ====
/-
  The dense steps of the network (the specification's lin128, dense64 and head), read at one entry, on the extended reals:

    lin128 x W (r, q)          = ∑ k, x (r, k) · W (k, q)
    dense64 a b W (r, q)       = ∑ k, elu (a (r, k) + b (0, k)) · W (k, q)
    head a b W c (r, q)        = (∑ k, elu (a (r, k) + b (0, k)) · W (k, q)) + c (0, q)

  with elu in the vector unit's spelling: the host's spelling of it is the same function of t.
-/
import proofs.«110824_j62483184222290_1_alg».proof.Proof.Spec
import proofs.«110824_j62483184222290_1_alg».proof.Proof.RegionElu
import proofs.«110824_j62483184222290_1_alg».proof.Proof.LibMatDot

noncomputable section

open scoped BigOperators

namespace Cert.KernelIdeal.RegionValue

open Idealize.ShloMosaic Idealize.ShloMosaic.ValueIdx Cert.ReferenceIdeal Cert.ReferenceIdeal.Facts₀

/-- The first layer's dense step at an entry. -/
theorem lin128_apply (x : FVec Ideal S50000x128 .f32) (W : FVec Ideal S128x64 .f32) (r : Fin 50000) (q : Fin 64) :
    Cert.Gcn.lin128 x W (ix2 r q) = ∑ k : Fin 128, x (ix2 r k) * W (ix2 k q) := by
  unfold Cert.Gcn.lin128
  exact Cert.Lib.MatDot.dotGeneral_apply _ none x W r q

/-- The host's elu at an index is elu of the entry. -/
theorem eluH_apply (t : FVec Ideal S50000x64 .f32) (i : S50000x64.Idx) : Cert.Gcn.eluH t i = elu (t i) := by
  have hz : broadcastInDim S50000x64 ![] bcast_S_S50000x64 Cert.Gcn.zeroS i = Ideal.ofBits .f32 0x00000000#32 := by
    rw [broadcastInDim_scalar_apply]; rfl
  have ho : broadcastInDim S50000x64 ![] bcast_S_S50000x64 Cert.Gcn.oneS i = Ideal.ofBits .f32 0x3F800000#32 := by
    rw [broadcastInDim_scalar_apply]; rfl
  show Scalar.select (Ideal.cmp .ogt (t i) (broadcastInDim S50000x64 ![] bcast_S_S50000x64 Cert.Gcn.zeroS i)) (t i)
      (broadcastInDim S50000x64 ![] bcast_S_S50000x64 Cert.Gcn.oneS i *
        (Ideal.exp (Scalar.select (Ideal.cmp .ogt (t i) (broadcastInDim S50000x64 ![] bcast_S_S50000x64 Cert.Gcn.zeroS i))
          (broadcastInDim S50000x64 ![] bcast_S_S50000x64 Cert.Gcn.zeroS i) (t i)) - 1)) = _
  rw [hz, ho]
  exact host_eq (t i)

/-- The bias row added, at an entry. -/
theorem addRow64_apply (t : FVec Ideal S50000x64 .f32) (brow : FVec Ideal S1x64 .f32) (r : Fin 50000) (k : Fin 64) :
    Cert.Gcn.addRow64 t brow (ix2 r k) = t (ix2 r k) + brow (ix2 (0 : Fin 1) k) := by
  unfold Cert.Gcn.addRow64
  rw [addf_apply, broadcastInDim_oneRow_apply]

/-- A later layer's dense step at an entry. -/
theorem dense64_apply (agg : FVec Ideal S50000x64 .f32) (brow : FVec Ideal S1x64 .f32) (W : FVec Ideal S64x64 .f32)
    (r : Fin 50000) (q : Fin 64) :
    Cert.Gcn.dense64 agg brow W (ix2 r q) = ∑ k : Fin 64, elu (agg (ix2 r k) + brow (ix2 (0 : Fin 1) k)) * W (ix2 k q) := by
  unfold Cert.Gcn.dense64
  refine (Cert.Lib.MatDot.dotGeneral_apply _ none _ W r q).trans ?_
  refine Finset.sum_congr rfl fun k _ => ?_
  rw [eluH_apply, addRow64_apply]

/-- The head at an entry. -/
theorem head_apply (agg : FVec Ideal S50000x64 .f32) (brow : FVec Ideal S1x64 .f32) (Wl : FVec Ideal S64x1 .f32)
    (bl11 : FVec Ideal S1x1 .f32) (r : Fin 50000) (q : Fin 1) :
    Cert.Gcn.head agg brow Wl bl11 (ix2 r q)
      = (∑ k : Fin 64, elu (agg (ix2 r k) + brow (ix2 (0 : Fin 1) k)) * Wl (ix2 k q)) + bl11 (ix2 (0 : Fin 1) q) := by
  unfold Cert.Gcn.head
  refine (addf_apply _ _ (ix2 r q)).trans ?_
  refine congrArg₂ (· + ·) ?_ ?_
  · refine (Cert.Lib.MatDot.dotGeneral_apply _ none _ Wl r q).trans ?_
    refine Finset.sum_congr rfl fun k _ => ?_
    rw [eluH_apply, addRow64_apply]
  · rw [broadcastInDim_oneRow_apply]

end Cert.KernelIdeal.RegionValue

end
-- ==== Proof.Region0.lean ====
/-
  Region 0 (the first layer's dense step) as one function of the arrays it is entered with.

  The grid has 10 points; point t loads rows 5000·t … 5000·t + 4999 of the 50000×128 input and the whole 128×64 weights,
  and stores rows 5000·t … 5000·t + 4999 of the 50000×64 output: entry (p, q) of the stored block is
  ∑ k, x (5000·t + p, k) · W (k, q), which is entry (5000·t + p, q) of the product x · W. The ten row blocks cover the
  output (row r lies in block r / 5000), so after the region the output array is x · W.
-/
import proofs.«110824_j62483184222290_1_alg».proof.Proof.Gen.KernelIdeal.Frame
import proofs.«110824_j62483184222290_1_alg».proof.Proof.RegionPay
import proofs.«110824_j62483184222290_1_alg».proof.Proof.RegionSpec
import Idealize.ShloMosaic.Lib.Pipeline.Value
import Idealize.ShloMosaic.Lib.Tactic

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: the input rows and the output rows move with t, the weights stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the input block at point t is entry (5000·t + p, k) of the input array. -/
theorem read0_0 (G : S50000x128.Idx → EReal) (t : Fin cfg0.N) (p : Fin 5000) (k : Fin 128) (hr : 5000 * t.val + p.val < 50000) :
    ((cfg0.win 0).blk t).view.read (Elt Ideal) G (ix2 p k) = G (ix2 ⟨5000 * t.val + p.val, hr⟩ k) := by
  obtain ⟨e0, e1, -⟩ := idx0 t
  rw [View.read_apply]
  show G _ = G _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weights' block at every point is the weights. -/
theorem read0_1 (G : S128x64.Idx → EReal) (t : Fin cfg0.N) (k : Fin 128) (q : Fin 64) :
    ((cfg0.win 1).blk t).view.read (Elt Ideal) G (ix2 k q) = G (ix2 k q) := by
  obtain ⟨-, -, e2, e3, -⟩ := idx0 t
  rw [View.read_apply]
  show G _ = G _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Entry (p, q) of the output block at point t is entry (5000·t + p, q) of the output array. -/
theorem read0_2 (G : S50000x64.Idx → EReal) (t : Fin cfg0.N) (p : Fin 5000) (q : Fin 64) (hr : 5000 * t.val + p.val < 50000) :
    ((cfg0.win 2).blk t).view.read (Elt Ideal) G (ix2 p q) = G (ix2 ⟨5000 * t.val + p.val, hr⟩ q) := by
  obtain ⟨-, -, -, -, e4, e5⟩ := idx0 t
  rw [View.read_apply]
  show G _ = G _
  congr 1
  funext a
  apply Fin.ext
  match a with
  | ⟨0, _⟩ => show win0_2.index t (0 : Fin 2) * 5000 + 1 * p.val = 5000 * t.val + p.val; rw [e4]; omega
  | ⟨1, _⟩ => show win0_2.index t (1 : Fin 2) * 64 + 1 * q.val = q.val; rw [e5]; omega

/-- What point t writes back is block t of the product of the input array by the weights. -/
theorem flushed0 (c : Dev nD) (t : Fin cfg0.N) :
    (dat0 (F := Ideal) V c).flushed 2 t
      = ((cfg0.win 2).blk t).view.read (Elt Ideal) (Cert.Gcn.lin128 (V c main_arg0) (V c main_arg3)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x64) zero2]
  funext j
  obtain ⟨p, q, rfl⟩ : ∃ (p : Fin 5000) (q : Fin 64), j = ix2 p q := ⟨j 0, j 1, eq_ix2 j⟩
  have ht : t.val < 10 := Nat.lt_of_lt_of_eq t.isLt N_0
  have hr : 5000 * t.val + p.val < 50000 := by have := p.isLt; omega
  show k0_pay1 (iblk0 V c 0 t) (iblk0 V c 1 t) (ix2 p q) = _
  refine (pay0_apply (iblk0 V c 0 t) (iblk0 V c 1 t) p q).trans ?_
  refine Eq.trans ?_ (read0_2 _ t p q hr).symm
  refine Eq.trans ?_ (lin128_apply _ _ ⟨5000 * t.val + p.val, hr⟩ q).symm
  refine Finset.sum_congr rfl fun k _ => ?_
  exact congrArg₂ (· * ·) (read0_0 _ t p k hr) (read0_1 _ t k q)

/-- An index of the output array lies in point t's block iff each coordinate lies in the block's range. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Every index of the output array lies in some point's block: row r in block r / 5000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 10) N_0.symm⟩, rfl⟩
  obtain ⟨-, -, -, -, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- After region 0 its output array is the product of the input array by the weights. -/
theorem lin0 (c : Dev nD) :
    (dat0 (F := Ideal) V c).arrAt 2 cfg0.N = Cert.Gcn.lin128 (V c main_arg0) (V c main_arg3) :=
  (dat0 (F := Ideal) V c).arrAt_eq_of_cover 2 (Cert.Gcn.lin128 (V c main_arg0) (V c main_arg3)) (fun t _ => flushed0 V c t) cover0

end Cert.KernelIdeal.RegionValue

end
-- ==== Proof.Region1.lean ====
/-
  Region 1 (the second layer's dense step on the previous aggregate) as one function of the arrays it is entered with.

  The grid has 10 points; point t loads rows 5000·t … 5000·t + 4999 of the 50000×64 aggregate, the whole one-row bias
  and the whole 64×64 weights, and stores rows 5000·t … 5000·t + 4999 of the 50000×64 output: entry (p, q) of the
  stored block is ∑ k, elu (a (5000·t + p, k) + b (0, k)) · W (k, q), which is entry (5000·t + p, q) of
  elu (a + b) · W. The ten row blocks cover the output (row r lies in block r / 5000), so after the region the
  output array is elu (a + b) · W.
-/
import proofs.«110824_j62483184222290_1_alg».proof.Proof.Gen.KernelIdeal.Frame
import proofs.«110824_j62483184222290_1_alg».proof.Proof.RegionPay
import proofs.«110824_j62483184222290_1_alg».proof.Proof.RegionSpec
import Idealize.ShloMosaic.Lib.Pipeline.Value
import Idealize.ShloMosaic.Lib.Tactic

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: the aggregate's rows and the output's rows move with t, the bias and the weights stay
    at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the aggregate's block at point t is entry (5000·t + p, k) of the aggregate. -/
theorem read1_0 (G : S50000x64.Idx → EReal) (t : Fin cfg1.N) (p : Fin 5000) (k : Fin 64) (hr : 5000 * t.val + p.val < 50000) :
    ((cfg1.win 0).blk t).view.read (Elt Ideal) G (ix2 p k) = G (ix2 ⟨5000 * t.val + p.val, hr⟩ k) := by
  obtain ⟨e0, e1, -⟩ := idx1 t
  rw [View.read_apply]
  show G _ = G _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- The bias row's block at every point is the bias row. -/
theorem read1_1 (G : S1x64.Idx → EReal) (t : Fin cfg1.N) (u : Fin 1) (k : Fin 64) :
    ((cfg1.win 1).blk t).view.read (Elt Ideal) G (ix2 u k) = G (ix2 u k) := by
  obtain ⟨-, -, e2, e3, -⟩ := idx1 t
  rw [View.read_apply]
  show G _ = G _
  congr 1
  funext a
  apply Fin.ext
  match a with
  | ⟨0, _⟩ => show win1_1.index t (0 : Fin 2) * 1 + 1 * u.val = u.val; rw [e2]; omega
  | ⟨1, _⟩ => show win1_1.index t (1 : Fin 2) * 64 + 1 * k.val = k.val; rw [e3]; omega

/-- The weights' block at every point is the weights. -/
theorem read1_2 (G : S64x64.Idx → EReal) (t : Fin cfg1.N) (k : Fin 64) (q : Fin 64) :
    ((cfg1.win 2).blk t).view.read (Elt Ideal) G (ix2 k q) = G (ix2 k q) := by
  obtain ⟨-, -, -, -, e4, e5, -⟩ := idx1 t
  rw [View.read_apply]
  show G _ = G _
  congr 1
  funext a
  apply Fin.ext
  match a with
  | ⟨0, _⟩ => show win1_2.index t (0 : Fin 2) * 64 + 1 * k.val = k.val; rw [e4]; omega
  | ⟨1, _⟩ => show win1_2.index t (1 : Fin 2) * 64 + 1 * q.val = q.val; rw [e5]; omega

/-- Entry (p, q) of the output block at point t is entry (5000·t + p, q) of the output array. -/
theorem read1_3 (G : S50000x64.Idx → EReal) (t : Fin cfg1.N) (p : Fin 5000) (q : Fin 64) (hr : 5000 * t.val + p.val < 50000) :
    ((cfg1.win 3).blk t).view.read (Elt Ideal) G (ix2 p q) = G (ix2 ⟨5000 * t.val + p.val, hr⟩ q) := by
  obtain ⟨-, -, -, -, -, -, e6, e7⟩ := idx1 t
  rw [View.read_apply]
  show G _ = G _
  congr 1
  funext a
  apply Fin.ext
  match a with
  | ⟨0, _⟩ => show win1_3.index t (0 : Fin 2) * 5000 + 1 * p.val = 5000 * t.val + p.val; rw [e6]; omega
  | ⟨1, _⟩ => show win1_3.index t (1 : Fin 2) * 64 + 1 * q.val = q.val; rw [e7]; omega

/-- What point t writes back is block t of elu (a + b) · W. -/
theorem flushed1 (c : Dev nD) (t : Fin cfg1.N) :
    (dat1 (F := Ideal) V c).flushed 3 t
      = ((cfg1.win 3).blk t).view.read (Elt Ideal) (Cert.Gcn.dense64 (V c main_v43) (V c main_v44) (V c main_arg5)) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S1x64) zero2, View.ld_unit_zero (S := S64x64) zero2]
  funext j
  obtain ⟨p, q, rfl⟩ : ∃ (p : Fin 5000) (q : Fin 64), j = ix2 p q := ⟨j 0, j 1, eq_ix2 j⟩
  have ht : t.val < 10 := Nat.lt_of_lt_of_eq t.isLt N_1
  have hr : 5000 * t.val + p.val < 50000 := by have := p.isLt; omega
  show k1_pay1 (iblk1 V c 0 t) (iblk1 V c 1 t) (iblk1 V c 2 t) (ix2 p q) = _
  refine (pay1_apply (iblk1 V c 0 t) (iblk1 V c 1 t) (iblk1 V c 2 t) p q).trans ?_
  refine Eq.trans ?_ (read1_3 _ t p q hr).symm
  refine Eq.trans ?_ (dense64_apply _ _ _ ⟨5000 * t.val + p.val, hr⟩ q).symm
  refine Finset.sum_congr rfl fun k _ => ?_
  exact congrArg₂ (· * ·) (congrArg elu (congrArg₂ (· + ·) (read1_0 _ t p k hr) (read1_1 _ t 0 k))) (read1_2 _ t k q)

/-- An index of the output array lies in point t's block iff each coordinate lies in the block's range. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every index of the output array lies in some point's block: row r in block r / 5000. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega : (i 0).val / 5000 < 10) N_1.symm⟩, rfl⟩
  obtain ⟨-, -, -, -, -, -, e6, e7⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 64 ≤ (i 1).val ∧ (i 1).val < win1_3.index t (1 : Fin 2) * 64 + 64; rw [e7]; omega

/-- After region 1 its output array is elu (a + b) · W of the aggregate a, the bias row b and the weights W it was entered with. -/
theorem dense1 (c : Dev nD) :
    (dat1 (F := Ideal) V c).arrAt 3 cfg1.N = Cert.Gcn.dense64 (V c main_v43) (V c main_v44) (V c main_arg5) :=
  (dat1 (F := Ideal) V c).arrAt_eq_of_cover 3 (Cert.Gcn.dense64 (V c main_v43) (V c main_v44) (V c main_arg5)) (fun t _ => flushed1 V c t) cover1

end Cert.KernelIdeal.RegionValue

end
-- ==== Proof.Region2.lean ====
/-
  Region 2 (the third layer's dense step on the previous aggregate) as one function of the arrays it is entered with.

  The grid has 10 points; point t loads rows 5000·t … 5000·t + 4999 of the 50000×64 aggregate, the whole one-row bias
  and the whole 64×64 weights, and stores rows 5000·t … 5000·t + 4999 of the 50000×64 output: entry (p, q) of the
  stored block is ∑ k, elu (a (5000·t + p, k) + b (0, k)) · W (k, q), which is entry (5000·t + p, q) of
  elu (a + b) · W. The ten row blocks cover the output (row r lies in block r / 5000), so after the region the
  output array is elu (a + b) · W.
-/
import proofs.«110824_j62483184222290_1_alg».proof.Proof.Gen.KernelIdeal.Frame
import proofs.«110824_j62483184222290_1_alg».proof.Proof.RegionPay
import proofs.«110824_j62483184222290_1_alg».proof.Proof.RegionSpec
import Idealize.ShloMosaic.Lib.Pipeline.Value
import Idealize.ShloMosaic.Lib.Tactic

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: the aggregate's rows and the output's rows move with t, the bias and the weights stay
    at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the aggregate's block at point t is entry (5000·t + p, k) of the aggregate. -/
theorem read2_0 (G : S50000x64.Idx → EReal) (t : Fin cfg2.N) (p : Fin 5000) (k : Fin 64) (hr : 5000 * t.val + p.val < 50000) :
    ((cfg2.win 0).blk t).view.read (Elt Ideal) G (ix2 p k) = G (ix2 ⟨5000 * t.val + p.val, hr⟩ k) := by
  obtain ⟨e0, e1, -⟩ := idx2 t
  rw [View.read_apply]
  show G _ = G _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega

/-- The bias row's block at every point is the bias row. -/
theorem read2_1 (G : S1x64.Idx → EReal) (t : Fin cfg2.N) (u : Fin 1) (k : Fin 64) :
    ((cfg2.win 1).blk t).view.read (Elt Ideal) G (ix2 u k) = G (ix2 u k) := by
  obtain ⟨-, -, e2, e3, -⟩ := idx2 t
  rw [View.read_apply]
  show G _ = G _
  congr 1
  funext a
  apply Fin.ext
  match a with
  | ⟨0, _⟩ => show win2_1.index t (0 : Fin 2) * 1 + 1 * u.val = u.val; rw [e2]; omega
  | ⟨1, _⟩ => show win2_1.index t (1 : Fin 2) * 64 + 1 * k.val = k.val; rw [e3]; omega

/-- The weights' block at every point is the weights. -/
theorem read2_2 (G : S64x64.Idx → EReal) (t : Fin cfg2.N) (k : Fin 64) (q : Fin 64) :
    ((cfg2.win 2).blk t).view.read (Elt Ideal) G (ix2 k q) = G (ix2 k q) := by
  obtain ⟨-, -, -, -, e4, e5, -⟩ := idx2 t
  rw [View.read_apply]
  show G _ = G _
  congr 1
  funext a
  apply Fin.ext
  match a with
  | ⟨0, _⟩ => show win2_2.index t (0 : Fin 2) * 64 + 1 * k.val = k.val; rw [e4]; omega
  | ⟨1, _⟩ => show win2_2.index t (1 : Fin 2) * 64 + 1 * q.val = q.val; rw [e5]; omega

/-- Entry (p, q) of the output block at point t is entry (5000·t + p, q) of the output array. -/
theorem read2_3 (G : S50000x64.Idx → EReal) (t : Fin cfg2.N) (p : Fin 5000) (q : Fin 64) (hr : 5000 * t.val + p.val < 50000) :
    ((cfg2.win 3).blk t).view.read (Elt Ideal) G (ix2 p q) = G (ix2 ⟨5000 * t.val + p.val, hr⟩ q) := by
  obtain ⟨-, -, -, -, -, -, e6, e7⟩ := idx2 t
  rw [View.read_apply]
  show G _ = G _
  congr 1
  funext a
  apply Fin.ext
  match a with
  | ⟨0, _⟩ => show win2_3.index t (0 : Fin 2) * 5000 + 1 * p.val = 5000 * t.val + p.val; rw [e6]; omega
  | ⟨1, _⟩ => show win2_3.index t (1 : Fin 2) * 64 + 1 * q.val = q.val; rw [e7]; omega

/-- What point t writes back is block t of elu (a + b) · W. -/
theorem flushed2 (c : Dev nD) (t : Fin cfg2.N) :
    (dat2 (F := Ideal) V c).flushed 3 t
      = ((cfg2.win 3).blk t).view.read (Elt Ideal) (Cert.Gcn.dense64 (V c main_v57) (V c main_v58) (V c main_arg7)) := by
  show (cfg2.win 3).cut (grid2.coords t) ((dat2 V c).after 3 t) = _
  rw [after2_3]
  unfold out2_3
  rw [View.canon_unit_zero zero2]
  simp only [View.ld_unit_zero (S := S5000x64) zero2, View.ld_unit_zero (S := S1x64) zero2, View.ld_unit_zero (S := S64x64) zero2]
  funext j
  obtain ⟨p, q, rfl⟩ : ∃ (p : Fin 5000) (q : Fin 64), j = ix2 p q := ⟨j 0, j 1, eq_ix2 j⟩
  have ht : t.val < 10 := Nat.lt_of_lt_of_eq t.isLt N_2
  have hr : 5000 * t.val + p.val < 50000 := by have := p.isLt; omega
  show k2_pay1 (iblk2 V c 0 t) (iblk2 V c 1 t) (iblk2 V c 2 t) (ix2 p q) = _
  refine (pay2_apply (iblk2 V c 0 t) (iblk2 V c 1 t) (iblk2 V c 2 t) p q).trans ?_
  refine Eq.trans ?_ (read2_3 _ t p q hr).symm
  refine Eq.trans ?_ (dense64_apply _ _ _ ⟨5000 * t.val + p.val, hr⟩ q).symm
  refine Finset.sum_congr rfl fun k _ => ?_
  exact congrArg₂ (· * ·) (congrArg elu (congrArg₂ (· + ·) (read2_0 _ t p k hr) (read2_1 _ t 0 k))) (read2_2 _ t k q)

/-- An index of the output array lies in point t's block iff each coordinate lies in the block's range. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v59).slice (win2_3.rect t)).set ↔ _
  rw [View.set_slice_whole, Rect.mem_set_unit]
  exact Iff.rfl

/-- Every index of the output array lies in some point's block: row r in block r / 5000. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (by omega : (i 0).val / 5000 < 10) N_2.symm⟩, rfl⟩
  obtain ⟨-, -, -, -, -, -, e6, e7⟩ := idx2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 64 ≤ (i 1).val ∧ (i 1).val < win2_3.index t (1 : Fin 2) * 64 + 64; rw [e7]; omega

/-- After region 2 its output array is elu (a + b) · W of the aggregate a, the bias row b and the weights W it was entered with. -/
theorem dense2 (c : Dev nD) :
    (dat2 (F := Ideal) V c).arrAt 3 cfg2.N = Cert.Gcn.dense64 (V c main_v57) (V c main_v58) (V c main_arg7) :=
  (dat2 (F := Ideal) V c).arrAt_eq_of_cover 3 (Cert.Gcn.dense64 (V c main_v57) (V c main_v58) (V c main_arg7)) (fun t _ => flushed2 V c t) cover2

end Cert.KernelIdeal.RegionValue

end
-- ==== Proof.Region3.lean ====
/-
  Region 3 (the head on the last aggregate) as one function of the arrays it is entered with.

  The grid has 10 points; point t loads rows 5000·t … 5000·t + 4999 of the 50000×64 aggregate, the whole one-row bias,
  the whole 64×1 weights and the whole 1×1 bias, and stores rows 5000·t … 5000·t + 4999 of the 50000×1 output: entry
  (p, q) of the stored block is (∑ k, elu (a (5000·t + p, k) + b (0, k)) · W (k, q)) + c (0, q), which is entry
  (5000·t + p, q) of elu (a + b) · W + c. The ten row blocks cover the output (row r lies in block r / 5000), so after
  the region the output array is elu (a + b) · W + c.
-/
import proofs.«110824_j62483184222290_1_alg».proof.Proof.Gen.KernelIdeal.Frame
import proofs.«110824_j62483184222290_1_alg».proof.Proof.RegionPay
import proofs.«110824_j62483184222290_1_alg».proof.Proof.RegionSpec
import Idealize.ShloMosaic.Lib.Pipeline.Value
import Idealize.ShloMosaic.Lib.Tactic

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point t: the aggregate's rows and the output's rows move with t, the two biases and the weights
    stay at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, k) of the aggregate's block at point t is entry (5000·t + p, k) of the aggregate. -/
theorem read3_0 (G : S50000x64.Idx → EReal) (t : Fin cfg3.N) (p : Fin 5000) (k : Fin 64) (hr : 5000 * t.val + p.val < 50000) :
    ((cfg3.win 0).blk t).view.read (Elt Ideal) G (ix2 p k) = G (ix2 ⟨5000 * t.val + p.val, hr⟩ k) := by
  obtain ⟨e0, e1, -⟩ := idx3 t
  rw [View.read_apply]
  show G _ = G _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 64 + 1 * k.val = k.val; rw [e1]; omega

/-- The bias row's block at every point is the bias row. -/
theorem read3_1 (G : S1x64.Idx → EReal) (t : Fin cfg3.N) (u : Fin 1) (k : Fin 64) :
    ((cfg3.win 1).blk t).view.read (Elt Ideal) G (ix2 u k) = G (ix2 u k) := by
  obtain ⟨-, -, e2, e3, -⟩ := idx3 t
  rw [View.read_apply]
  show G _ = G _
  congr 1
  funext a
  apply Fin.ext
  match a with
  | ⟨0, _⟩ => show win3_1.index t (0 : Fin 2) * 1 + 1 * u.val = u.val; rw [e2]; omega
  | ⟨1, _⟩ => show win3_1.index t (1 : Fin 2) * 64 + 1 * k.val = k.val; rw [e3]; omega

/-- The weights' block at every point is the weights. -/
theorem read3_2 (G : S64x1.Idx → EReal) (t : Fin cfg3.N) (k : Fin 64) (q : Fin 1) :
    ((cfg3.win 2).blk t).view.read (Elt Ideal) G (ix2 k q) = G (ix2 k q) := by
  obtain ⟨-, -, -, -, e4, e5, -⟩ := idx3 t
  rw [View.read_apply]
  show G _ = G _
  congr 1
  funext a
  apply Fin.ext
  match a with
  | ⟨0, _⟩ => show win3_2.index t (0 : Fin 2) * 64 + 1 * k.val = k.val; rw [e4]; omega
  | ⟨1, _⟩ => show win3_2.index t (1 : Fin 2) * 1 + 1 * q.val = q.val; rw [e5]; omega

/-- The 1×1 bias's block at every point is the bias. -/
theorem read3_3 (G : S1x1.Idx → EReal) (t : Fin cfg3.N) (u : Fin 1) (q : Fin 1) :
    ((cfg3.win 3).blk t).view.read (Elt Ideal) G (ix2 u q) = G (ix2 u q) := by
  obtain ⟨-, -, -, -, -, -, e6, e7, -⟩ := idx3 t
  rw [View.read_apply]
  show G _ = G _
  congr 1
  funext a
  apply Fin.ext
  match a with
  | ⟨0, _⟩ => show win3_3.index t (0 : Fin 2) * 1 + 1 * u.val = u.val; rw [e6]; omega
  | ⟨1, _⟩ => show win3_3.index t (1 : Fin 2) * 1 + 1 * q.val = q.val; rw [e7]; omega

/-- Entry (p, q) of the output block at point t is entry (5000·t + p, q) of the output array. -/
theorem read3_4 (G : S50000x1.Idx → EReal) (t : Fin cfg3.N) (p : Fin 5000) (q : Fin 1) (hr : 5000 * t.val + p.val < 50000) :
    ((cfg3.win 4).blk t).view.read (Elt Ideal) G (ix2 p q) = G (ix2 ⟨5000 * t.val + p.val, hr⟩ q) := by
  obtain ⟨-, -, -, -, -, -, -, -, e8, e9⟩ := idx3 t
  rw [View.read_apply]
  show G _ = G _
  congr 1
  funext a
  apply Fin.ext
  match a with
  | ⟨0, _⟩ => show win3_4.index t (0 : Fin 2) * 5000 + 1 * p.val = 5000 * t.val + p.val; rw [e8]; omega
  | ⟨1, _⟩ => show win3_4.index t (1 : Fin 2) * 1 + 1 * q.val = q.val; rw [e9]; omega

/-- What point t writes back is block t of elu (a + b) · W + c. -/
theorem flushed3 (c : Dev nD) (t : Fin cfg3.N) :
    (dat3 (F := Ideal) V c).flushed 4 t
      = ((cfg3.win 4).blk t).view.read (Elt Ideal) (Cert.Gcn.head (V c main_v71) (V c main_v72) (V c main_arg9) (V c main_v73)) := by
  show (cfg3.win 4).cut (grid3.coords t) ((dat3 V c).after 4 t) = _
  rw [after3_4]
  unfold out3_4
  rw [View.canon_unit_zero zero2]
  simp only [View.ld_unit_zero (S := S5000x64) zero2, View.ld_unit_zero (S := S1x64) zero2, View.ld_unit_zero (S := S64x1) zero2,
    View.ld_unit_zero (S := S1x1) zero2]
  funext j
  obtain ⟨p, q, rfl⟩ : ∃ (p : Fin 5000) (q : Fin 1), j = ix2 p q := ⟨j 0, j 1, eq_ix2 j⟩
  have ht : t.val < 10 := Nat.lt_of_lt_of_eq t.isLt N_3
  have hr : 5000 * t.val + p.val < 50000 := by have := p.isLt; omega
  show k3_pay1 (iblk3 V c 0 t) (iblk3 V c 1 t) (iblk3 V c 2 t) (iblk3 V c 3 t) (ix2 p q) = _
  refine (pay3_apply (iblk3 V c 0 t) (iblk3 V c 1 t) (iblk3 V c 2 t) (iblk3 V c 3 t) p q).trans ?_
  refine Eq.trans ?_ (read3_4 _ t p q hr).symm
  refine Eq.trans ?_ (head_apply _ _ _ _ ⟨5000 * t.val + p.val, hr⟩ q).symm
  refine congrArg₂ (· + ·) (Finset.sum_congr rfl fun k _ => ?_) (read3_3 _ t 0 q)
  exact congrArg₂ (· * ·) (congrArg elu (congrArg₂ (· + ·) (read3_0 _ t p k hr) (read3_1 _ t 0 k))) (read3_2 _ t k q)

/-- An index of the output array lies in point t's block iff each coordinate lies in the block's range. -/
theorem mem_blk3 (t : Fin cfg3.N) (i : S50000x1.Idx) :
    i ∈ ((cfg3.win 4).blk t).view.set ↔ ∀ a : Fin 2, win3_4.index t a * S5000x1.size a ≤ (i a).val ∧ (i a).val < win3_4.index t a * S5000x1.size a + S5000x1.size a := by
  show i ∈ ((View.whole main_v74).slice (win3_4.rect t)).set ↔ _
  rw [View.set_slice_whole, Rect.mem_set_unit]
  exact Iff.rfl

/-- Every index of the output array lies in some point's block: row r in block r / 5000. -/
theorem cover3 (i : S50000x1.Idx) : ∃ t : Fin cfg3.N, (cfg3.win 4).flush t = true ∧ i ∈ ((cfg3.win 4).blk t).view.set := by
  have hi0 : (i 0).val < 50000 := (i 0).isLt
  have hi1 : (i 1).val < 1 := (i 1).isLt
  obtain ⟨t, ht⟩ : ∃ t : Fin cfg3.N, t.val = (i 0).val / 5000 :=
    ⟨⟨(i 0).val / 5000, Nat.lt_of_lt_of_eq (by omega : (i 0).val / 5000 < 10) N_3.symm⟩, rfl⟩
  obtain ⟨-, -, -, -, -, -, -, -, e8, e9⟩ := idx3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [e8, ht]; omega
  | ⟨1, _⟩ => show win3_4.index t (1 : Fin 2) * 1 ≤ (i 1).val ∧ (i 1).val < win3_4.index t (1 : Fin 2) * 1 + 1; rw [e9]; omega

/-- After region 3 its output array is elu (a + b) · W + c of the aggregate a, the bias row b, the weights W and the 1×1
    bias c it was entered with. -/
theorem head3 (c : Dev nD) :
    (dat3 (F := Ideal) V c).arrAt 4 cfg3.N = Cert.Gcn.head (V c main_v71) (V c main_v72) (V c main_arg9) (V c main_v73) :=
  (dat3 (F := Ideal) V c).arrAt_eq_of_cover 4 (Cert.Gcn.head (V c main_v71) (V c main_v72) (V c main_arg9) (V c main_v73))
    (fun t _ => flushed3 V c t) cover3

end Cert.KernelIdeal.RegionValue

end
-- ==== Proof.LibHostFold.lean ====
/-
  A line of host operations folds over a valuation of the buffers, one operation at a time. Over a concatenation of
  two lines the fold is the second line's fold of the first line's: a long line can be read in stretches, each over a
  variable valuation, and the stretches' values composed.
-/
import Idealize.ShloMosaic.Lib.StableHlo.Run

noncomputable section

namespace Cert.Lib.HostFold

open Idealize.ShloMosaic Idealize.ShloMosaic.StableHlo

variable {τ : Topo} {sig : RefSig} {Val : EltTy → Type}

/-- The fold over `l₁ ++ l₂` is `l₂`'s fold of `l₁`'s. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.HostFold

end
-- ==== Proof.RefOps.lean ====
/-
  The reference program's @main as one straight line of host operations, its calls of @elu, @_where, @_where_0 and
  @_where_1 replaced by the callee's operations over the call's own buffers. The line is cut into eleven stretches at the
  values the network is made of (the message ends, the norm, each dense step, each propagation, the head, the pool),
  so that the fold of the line over the buffers can be read one stretch at a time.
-/
import proofs.«110824_j62483184222290_1_alg».proof.ReferenceIdeal
import proofs.«110824_j62483184222290_1_alg».proof.Proof.Gen.ReferenceIdeal
import proofs.«110824_j62483184222290_1_alg».proof.Proof.LibHostFold
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- A property of every operation of two lines holds of every operation of their concatenation. -/
theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

/-- The two ends of every message: row 0 and row 1 of the edge list, each followed by the node numbers (the self loops). -/
abbrev s0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
theorem s0_sub : (s0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem s0_fresh : (s0 : List (HloOp τ sig (Elt F))).Forall fun op => op.fresh = ∅ := by
  simp only [List.Forall]; repeat' constructor
/-- The buffers stretch 0 writes. -/
abbrev s0_W : List (Ref sig .tc) := [main_v0, main_v1, main_v2, main_v3, main_v4, main_v5, main_v6]
theorem s0_writes : (s0 : List (HloOp τ sig (Elt F))).Forall fun op => op.writes ⊆ (s0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The degrees (a scatter-add of ones at the targets) and their inverse square roots, 0 where the degree is not positive. -/
abbrev s1 : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]
theorem s1_sub : (s1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem s1_fresh : (s1 : List (HloOp τ sig (Elt F))).Forall fun op => op.fresh = ∅ := by
  simp only [List.Forall]; repeat' constructor
/-- The buffers stretch 1 writes. -/
abbrev s1_W : List (Ref sig .tc) := [main_cst, main_v7, main_cst_0, main_v8, main_v9, main_v10, main_cst_1, main_v11, main_v12, main_v13, main_cst_2, main_call0_v0, main_call0_v1, main_v14]
theorem s1_writes : (s1 : List (HloOp τ sig (Elt F))).Forall fun op => op.writes ⊆ (s1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Both ends' row numbers wrapped once, the inverse square roots gathered at them, and their product: the norm of each message. -/
abbrev s2 : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]
theorem s2_sub : (s2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem s2_fresh : (s2 : List (HloOp τ sig (Elt F))).Forall fun op => op.fresh = ∅ := by
  simp only [List.Forall]; repeat' constructor
/-- The buffers stretch 2 writes. -/
abbrev s2_W : List (Ref sig .tc) := [main_c, main_v15, main_v16, main_c_3, main_v17, main_v18, main_v19, main_v20, main_v21, main_c_4, main_v22, main_v23, main_c_5, main_v24, main_v25, main_v26, main_v27, main_v28, main_v29]
theorem s2_writes : (s2 : List (HloOp τ sig (Elt F))).Forall fun op => op.writes ⊆ (s2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The first dense step, x · W1. -/
abbrev s3 : List (HloOp τ sig (Elt F)) :=
  [ StableHlo.binary main_arg0 main_arg3 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]
theorem s3_sub : (s3 : List (HloOp τ sig (Elt F))).Forall fun op => op.bufs ⊆ tcRefs τ sig :=
  binary_bufs_sub ..
theorem s3_fresh : (s3 : List (HloOp τ sig (Elt F))).Forall fun op => op.fresh = ∅ := by
  simp only [List.Forall]; repeat' constructor
/-- The buffers stretch 3 writes. -/
abbrev s3_W : List (Ref sig .tc) := [main_v30]
theorem s3_writes : (s3 : List (HloOp τ sig (Elt F))).Forall fun op => op.writes ⊆ (s3_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))

/-- The first propagation: the rows gathered at the wrapped sources, scaled by the norm, scatter-added at the targets. -/
abbrev s4 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x64 ![0, 1] bcast_S850000x1_S850000x64_0_1 : (⟨S850000x1, .f32⟩ : BufTy).Contents (Elt F) → (⟨S850000x64, .f32⟩ : BufTy).Contents (Elt F)),
    StableHlo.binary main_v37 main_v39 main_v40 (mulf : (⟨S850000x64, .f32⟩ : BufTy).Contents (Elt F) → (⟨S850000x64, .f32⟩ : BufTy).Contents (Elt F) → (⟨S850000x64, .f32⟩ : BufTy).Contents (Elt F)),
    StableHlo.nullary main_cst_8 (constant S_ .f32 0x00000000#32),
    StableHlo.unary main_cst_8 main_v41 (broadcastInDim S50000x64 ![] bcast_S_S50000x64 : (⟨S_, .f32⟩ : BufTy).Contents (Elt F) → (⟨S50000x64, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]
theorem s4_sub : (s4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem s4_fresh : (s4 : List (HloOp τ sig (Elt F))).Forall fun op => op.fresh = ∅ := by
  simp only [List.Forall]; repeat' constructor
/-- The buffers stretch 4 writes. -/
abbrev s4_W : List (Ref sig .tc) := [main_c_6, main_v31, main_v32, main_c_7, main_v33, main_v34, main_v35, main_v36, main_v37, main_v38, main_v39, main_v40, main_cst_8, main_v41, main_v42, main_v43]
theorem s4_writes : (s4 : List (HloOp τ sig (Elt F))).Forall fun op => op.writes ⊆ (s4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The first bias and elu, and the second dense step. -/
abbrev s5 : List (HloOp τ sig (Elt F)) :=
  [ StableHlo.unary main_arg4 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.nullary main_call1_cst (constant S_ .f32 0x00000000#32),
    StableHlo.unary main_call1_cst main_call1_v0 (broadcastInDim S50000x64 ![] bcast_S_S50000x64 : (⟨S_, .f32⟩ : BufTy).Contents (Elt F) → (⟨S50000x64, .f32⟩ : BufTy).Contents (Elt F)),
    StableHlo.binary main_v46 main_call1_v0 main_call1_v1 (cmpf .ogt : (⟨S50000x64, .f32⟩ : BufTy).Contents (Elt F) → (⟨S50000x64, .f32⟩ : BufTy).Contents (Elt F) → (⟨S50000x64, .i1⟩ : BufTy).Contents (Elt F)),
    StableHlo.nullary main_call1_cst_0 (constant S_ .f32 0x00000000#32),
    StableHlo.unary main_call1_cst_0 main_call1_v2 (broadcastInDim S50000x64 ![] bcast_S_S50000x64 : (⟨S_, .f32⟩ : BufTy).Contents (Elt F) → (⟨S50000x64, .f32⟩ : BufTy).Contents (Elt F)),
    StableHlo.binary main_v46 main_call1_v2 main_call1_v3 (cmpf .ogt : (⟨S50000x64, .f32⟩ : BufTy).Contents (Elt F) → (⟨S50000x64, .f32⟩ : BufTy).Contents (Elt F) → (⟨S50000x64, .i1⟩ : BufTy).Contents (Elt F)),
    StableHlo.nullary main_call1_cst_1 (constant S_ .f32 0x00000000#32),
    StableHlo.unary main_call1_cst_1 main_call1_call0_v0 (id : (⟨S_, .f32⟩ : BufTy).Contents (Elt F) → (⟨S_, .f32⟩ : BufTy).Contents (Elt F)),
    StableHlo.unary main_call1_call0_v0 main_call1_call0_v1 (broadcastInDim S50000x64 ![] bcast_S_S50000x64 : (⟨S_, .f32⟩ : BufTy).Contents (Elt F) → (⟨S50000x64, .f32⟩ : BufTy).Contents (Elt F)),
    StableHlo.ternary main_call1_v3 main_call1_call0_v1 main_v46 main_call1_v4 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.unary main_call1_v4 main_call1_v5 (Host.expm1 : (⟨S50000x64, .f32⟩ : BufTy).Contents (Elt F) → (⟨S50000x64, .f32⟩ : BufTy).Contents (Elt F)),
    StableHlo.nullary main_call1_cst_2 (constant S_ .f32 0x3F800000#32),
    StableHlo.unary main_call1_cst_2 main_call1_v6 (broadcastInDim S50000x64 ![] bcast_S_S50000x64 : (⟨S_, .f32⟩ : BufTy).Contents (Elt F) → (⟨S50000x64, .f32⟩ : BufTy).Contents (Elt F)),
    StableHlo.binary main_call1_v6 main_call1_v5 main_call1_v7 (mulf : (⟨S50000x64, .f32⟩ : BufTy).Contents (Elt F) → (⟨S50000x64, .f32⟩ : BufTy).Contents (Elt F) → (⟨S50000x64, .f32⟩ : BufTy).Contents (Elt F)),
    StableHlo.ternary main_call1_v1 main_v46 main_call1_v7 main_v47 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.binary main_v47 main_arg5 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]
theorem s5_sub : (s5 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩
theorem s5_fresh : (s5 : List (HloOp τ sig (Elt F))).Forall fun op => op.fresh = ∅ := by
  simp only [List.Forall]; repeat' constructor
/-- The buffers stretch 5 writes. -/
abbrev s5_W : List (Ref sig .tc) := [main_v44, main_v45, main_v46, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v47, main_v48]
theorem s5_writes : (s5 : List (HloOp τ sig (Elt F))).Forall fun op => op.writes ⊆ (s5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The second propagation. -/
abbrev s6 : List (HloOp τ sig (Elt F)) :=
  [ StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x64 ![0, 1] bcast_S850000x1_S850000x64_0_1 : (⟨S850000x1, .f32⟩ : BufTy).Contents (Elt F) → (⟨S850000x64, .f32⟩ : BufTy).Contents (Elt F)),
    StableHlo.binary main_v55 main_v57 main_v58 (mulf : (⟨S850000x64, .f32⟩ : BufTy).Contents (Elt F) → (⟨S850000x64, .f32⟩ : BufTy).Contents (Elt F) → (⟨S850000x64, .f32⟩ : BufTy).Contents (Elt F)),
    StableHlo.nullary main_cst_11 (constant S_ .f32 0x00000000#32),
    StableHlo.unary main_cst_11 main_v59 (broadcastInDim S50000x64 ![] bcast_S_S50000x64 : (⟨S_, .f32⟩ : BufTy).Contents (Elt F) → (⟨S50000x64, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]
theorem s6_sub : (s6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem s6_fresh : (s6 : List (HloOp τ sig (Elt F))).Forall fun op => op.fresh = ∅ := by
  simp only [List.Forall]; repeat' constructor
/-- The buffers stretch 6 writes. -/
abbrev s6_W : List (Ref sig .tc) := [main_c_9, main_v49, main_v50, main_c_10, main_v51, main_v52, main_v53, main_v54, main_v55, main_v56, main_v57, main_v58, main_cst_11, main_v59, main_v60, main_v61]
theorem s6_writes : (s6 : List (HloOp τ sig (Elt F))).Forall fun op => op.writes ⊆ (s6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The second bias and elu, and the third dense step. -/
abbrev s7 : List (HloOp τ sig (Elt F)) :=
  [ StableHlo.unary main_arg6 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)),
    StableHlo.nullary main_call2_cst (constant S_ .f32 0x00000000#32),
    StableHlo.unary main_call2_cst main_call2_v0 (broadcastInDim S50000x64 ![] bcast_S_S50000x64 : (⟨S_, .f32⟩ : BufTy).Contents (Elt F) → (⟨S50000x64, .f32⟩ : BufTy).Contents (Elt F)),
    StableHlo.binary main_v64 main_call2_v0 main_call2_v1 (cmpf .ogt : (⟨S50000x64, .f32⟩ : BufTy).Contents (Elt F) → (⟨S50000x64, .f32⟩ : BufTy).Contents (Elt F) → (⟨S50000x64, .i1⟩ : BufTy).Contents (Elt F)),
    StableHlo.nullary main_call2_cst_0 (constant S_ .f32 0x00000000#32),
    StableHlo.unary main_call2_cst_0 main_call2_v2 (broadcastInDim S50000x64 ![] bcast_S_S50000x64 : (⟨S_, .f32⟩ : BufTy).Contents (Elt F) → (⟨S50000x64, .f32⟩ : BufTy).Contents (Elt F)),
    StableHlo.binary main_v64 main_call2_v2 main_call2_v3 (cmpf .ogt : (⟨S50000x64, .f32⟩ : BufTy).Contents (Elt F) → (⟨S50000x64, .f32⟩ : BufTy).Contents (Elt F) → (⟨S50000x64, .i1⟩ : BufTy).Contents (Elt F)),
    StableHlo.nullary main_call2_cst_1 (constant S_ .f32 0x00000000#32),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 (broadcastInDim S50000x64 ![] bcast_S_S50000x64 : (⟨S_, .f32⟩ : BufTy).Contents (Elt F) → (⟨S50000x64, .f32⟩ : BufTy).Contents (Elt F)),
    StableHlo.ternary main_call2_v3 main_call2_call0_v1 main_v64 main_call2_v4 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.unary main_call2_v4 main_call2_v5 (Host.expm1 : (⟨S50000x64, .f32⟩ : BufTy).Contents (Elt F) → (⟨S50000x64, .f32⟩ : BufTy).Contents (Elt F)),
    StableHlo.nullary main_call2_cst_2 (constant S_ .f32 0x3F800000#32),
    StableHlo.unary main_call2_cst_2 main_call2_v6 (broadcastInDim S50000x64 ![] bcast_S_S50000x64 : (⟨S_, .f32⟩ : BufTy).Contents (Elt F) → (⟨S50000x64, .f32⟩ : BufTy).Contents (Elt F)),
    StableHlo.binary main_call2_v6 main_call2_v5 main_call2_v7 (mulf : (⟨S50000x64, .f32⟩ : BufTy).Contents (Elt F) → (⟨S50000x64, .f32⟩ : BufTy).Contents (Elt F) → (⟨S50000x64, .f32⟩ : BufTy).Contents (Elt F)),
    StableHlo.ternary main_call2_v1 main_v64 main_call2_v7 main_v65 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.binary main_v65 main_arg7 main_v66 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]
theorem s7_sub : (s7 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩
theorem s7_fresh : (s7 : List (HloOp τ sig (Elt F))).Forall fun op => op.fresh = ∅ := by
  simp only [List.Forall]; repeat' constructor
/-- The buffers stretch 7 writes. -/
abbrev s7_W : List (Ref sig .tc) := [main_v62, main_v63, main_v64, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v65, main_v66]
theorem s7_writes : (s7 : List (HloOp τ sig (Elt F))).Forall fun op => op.writes ⊆ (s7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The third propagation. -/
abbrev s8 : List (HloOp τ sig (Elt F)) :=
  [ StableHlo.nullary main_c_12 (constantI S_ 32 0#32),
    StableHlo.unary main_c_12 main_v67 (broadcastInDim S850000 ![] bcast_S_S850000 : (⟨S_, .i32⟩ : BufTy).Contents (Elt F) → (⟨S850000, .i32⟩ : BufTy).Contents (Elt F)),
    StableHlo.binary main_v3 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v69 (broadcastInDim S850000 ![] bcast_S_S850000 : (⟨S_, .i32⟩ : BufTy).Contents (Elt F) → (⟨S850000, .i32⟩ : BufTy).Contents (Elt F)),
    StableHlo.binary main_v3 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v66 main_v72 main_v73 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v74 (broadcastInDim S850000x1 ![0] bcast_S850000_S850000x1_0 : (⟨S850000, .f32⟩ : BufTy).Contents (Elt F) → (⟨S850000x1, .f32⟩ : BufTy).Contents (Elt F)),
    StableHlo.unary main_v74 main_v75 (broadcastInDim S850000x64 ![0, 1] bcast_S850000x1_S850000x64_0_1 : (⟨S850000x1, .f32⟩ : BufTy).Contents (Elt F) → (⟨S850000x64, .f32⟩ : BufTy).Contents (Elt F)),
    StableHlo.binary main_v73 main_v75 main_v76 (mulf : (⟨S850000x64, .f32⟩ : BufTy).Contents (Elt F) → (⟨S850000x64, .f32⟩ : BufTy).Contents (Elt F) → (⟨S850000x64, .f32⟩ : BufTy).Contents (Elt F)),
    StableHlo.nullary main_cst_14 (constant S_ .f32 0x00000000#32),
    StableHlo.unary main_cst_14 main_v77 (broadcastInDim S50000x64 ![] bcast_S_S50000x64 : (⟨S_, .f32⟩ : BufTy).Contents (Elt F) → (⟨S50000x64, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]
theorem s8_sub : (s8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem s8_fresh : (s8 : List (HloOp τ sig (Elt F))).Forall fun op => op.fresh = ∅ := by
  simp only [List.Forall]; repeat' constructor
/-- The buffers stretch 8 writes. -/
abbrev s8_W : List (Ref sig .tc) := [main_c_12, main_v67, main_v68, main_c_13, main_v69, main_v70, main_v71, main_v72, main_v73, main_v74, main_v75, main_v76, main_cst_14, main_v77, main_v78, main_v79]
theorem s8_writes : (s8 : List (HloOp τ sig (Elt F))).Forall fun op => op.writes ⊆ (s8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The third bias and elu, and the head: the product with Wl plus bl. -/
abbrev s9 : List (HloOp τ sig (Elt F)) :=
  [ StableHlo.unary main_arg8 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v79 main_v81 main_v82 (addf : (⟨S50000x64, .f32⟩ : BufTy).Contents (Elt F) → (⟨S50000x64, .f32⟩ : BufTy).Contents (Elt F) → (⟨S50000x64, .f32⟩ : BufTy).Contents (Elt F)),
    StableHlo.nullary main_call3_cst (constant S_ .f32 0x00000000#32),
    StableHlo.unary main_call3_cst main_call3_v0 (broadcastInDim S50000x64 ![] bcast_S_S50000x64 : (⟨S_, .f32⟩ : BufTy).Contents (Elt F) → (⟨S50000x64, .f32⟩ : BufTy).Contents (Elt F)),
    StableHlo.binary main_v82 main_call3_v0 main_call3_v1 (cmpf .ogt : (⟨S50000x64, .f32⟩ : BufTy).Contents (Elt F) → (⟨S50000x64, .f32⟩ : BufTy).Contents (Elt F) → (⟨S50000x64, .i1⟩ : BufTy).Contents (Elt F)),
    StableHlo.nullary main_call3_cst_0 (constant S_ .f32 0x00000000#32),
    StableHlo.unary main_call3_cst_0 main_call3_v2 (broadcastInDim S50000x64 ![] bcast_S_S50000x64 : (⟨S_, .f32⟩ : BufTy).Contents (Elt F) → (⟨S50000x64, .f32⟩ : BufTy).Contents (Elt F)),
    StableHlo.binary main_v82 main_call3_v2 main_call3_v3 (cmpf .ogt : (⟨S50000x64, .f32⟩ : BufTy).Contents (Elt F) → (⟨S50000x64, .f32⟩ : BufTy).Contents (Elt F) → (⟨S50000x64, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S50000x64 ![] bcast_S_S50000x64 : (⟨S_, .f32⟩ : BufTy).Contents (Elt F) → (⟨S50000x64, .f32⟩ : BufTy).Contents (Elt F)),
    StableHlo.ternary main_call3_v3 main_call3_call0_v1 main_v82 main_call3_v4 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.unary main_call3_v4 main_call3_v5 (Host.expm1 : (⟨S50000x64, .f32⟩ : BufTy).Contents (Elt F) → (⟨S50000x64, .f32⟩ : BufTy).Contents (Elt F)),
    StableHlo.nullary main_call3_cst_2 (constant S_ .f32 0x3F800000#32),
    StableHlo.unary main_call3_cst_2 main_call3_v6 (broadcastInDim S50000x64 ![] bcast_S_S50000x64 : (⟨S_, .f32⟩ : BufTy).Contents (Elt F) → (⟨S50000x64, .f32⟩ : BufTy).Contents (Elt F)),
    StableHlo.binary main_call3_v6 main_call3_v5 main_call3_v7 (mulf : (⟨S50000x64, .f32⟩ : BufTy).Contents (Elt F) → (⟨S50000x64, .f32⟩ : BufTy).Contents (Elt F) → (⟨S50000x64, .f32⟩ : BufTy).Contents (Elt F)),
    StableHlo.ternary main_call3_v1 main_v82 main_call3_v7 main_v83 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.binary main_v83 main_arg9 main_v84 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg10 main_v85 (broadcastInDim S1x1 ![1] bcast_S1_S1x1_1 : (⟨S1, .f32⟩ : BufTy).Contents (Elt F) → (⟨S1x1, .f32⟩ : BufTy).Contents (Elt F)),
    StableHlo.unary main_v85 main_v86 (broadcastInDim S50000x1 ![0, 1] bcast_S1x1_S50000x1_0_1 : (⟨S1x1, .f32⟩ : BufTy).Contents (Elt F) → (⟨S50000x1, .f32⟩ : BufTy).Contents (Elt F)),
    StableHlo.binary main_v84 main_v86 main_v87 (addf : (⟨S50000x1, .f32⟩ : BufTy).Contents (Elt F) → (⟨S50000x1, .f32⟩ : BufTy).Contents (Elt F) → (⟨S50000x1, .f32⟩ : BufTy).Contents (Elt F)) ]
theorem s9_sub : (s9 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
theorem s9_fresh : (s9 : List (HloOp τ sig (Elt F))).Forall fun op => op.fresh = ∅ := by
  simp only [List.Forall]; repeat' constructor
/-- The buffers stretch 9 writes. -/
abbrev s9_W : List (Ref sig .tc) := [main_v80, main_v81, main_v82, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v83, main_v84, main_v85, main_v86, main_v87]
theorem s9_writes : (s9 : List (HloOp τ sig (Elt F))).Forall fun op => op.writes ⊆ (s9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The pool: the head summed per graph, the node counts per graph floored at 1, the quotient, as a vector of 64. -/
abbrev s10 : List (HloOp τ sig (Elt F)) :=
  [ StableHlo.nullary main_cst_15 (constant S_ .f32 0x00000000#32),
    StableHlo.unary main_cst_15 main_v88 (broadcastInDim S64x1 ![] bcast_S_S64x1 : (⟨S_, .f32⟩ : BufTy).Contents (Elt F) → (⟨S64x1, .f32⟩ : BufTy).Contents (Elt F)),
    StableHlo.unary main_arg2 main_v89 (broadcastInDim S50000x1 ![0] bcast_S50000_S50000x1_0 : (⟨S50000, .i32⟩ : BufTy).Contents (Elt F) → (⟨S50000x1, .i32⟩ : BufTy).Contents (Elt F)),
    StableHlo.ternary main_v88 main_v89 main_v87 main_v90 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    StableHlo.nullary main_cst_16 (constant S_ .f32 0x3F800000#32),
    StableHlo.unary main_cst_16 main_v91 (broadcastInDim S50000x1 ![] bcast_S_S50000x1 : (⟨S_, .f32⟩ : BufTy).Contents (Elt F) → (⟨S50000x1, .f32⟩ : BufTy).Contents (Elt F)),
    StableHlo.nullary main_cst_17 (constant S_ .f32 0x00000000#32),
    StableHlo.unary main_cst_17 main_v92 (broadcastInDim S64x1 ![] bcast_S_S64x1 : (⟨S_, .f32⟩ : BufTy).Contents (Elt F) → (⟨S64x1, .f32⟩ : BufTy).Contents (Elt F)),
    StableHlo.unary main_arg2 main_v93 (broadcastInDim S50000x1 ![0] bcast_S50000_S50000x1_0 : (⟨S50000, .i32⟩ : BufTy).Contents (Elt F) → (⟨S50000x1, .i32⟩ : BufTy).Contents (Elt F)),
    StableHlo.ternary main_v92 main_v93 main_v91 main_v94 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    StableHlo.nullary main_cst_18 (constant S_ .f32 0x3F800000#32),
    StableHlo.unary main_cst_18 main_v95 (broadcastInDim S64x1 ![] bcast_S_S64x1 : (⟨S_, .f32⟩ : BufTy).Contents (Elt F) → (⟨S64x1, .f32⟩ : BufTy).Contents (Elt F)),
    StableHlo.binary main_v94 main_v95 main_v96 (maximumf : (⟨S64x1, .f32⟩ : BufTy).Contents (Elt F) → (⟨S64x1, .f32⟩ : BufTy).Contents (Elt F) → (⟨S64x1, .f32⟩ : BufTy).Contents (Elt F)),
    StableHlo.binary main_v90 main_v96 main_v97 (Host.divf : (⟨S64x1, .f32⟩ : BufTy).Contents (Elt F) → (⟨S64x1, .f32⟩ : BufTy).Contents (Elt F) → (⟨S64x1, .f32⟩ : BufTy).Contents (Elt F)),
    StableHlo.reshape main_v97 main_v98 rfl shapeCasts_S64x1_S64 ]
theorem s10_sub : (s10 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub .., reshape_bufs_sub ..⟩
theorem s10_fresh : (s10 : List (HloOp τ sig (Elt F))).Forall fun op => op.fresh = ∅ := by
  simp only [List.Forall]; repeat' constructor
/-- The buffers stretch 10 writes. -/
abbrev s10_W : List (Ref sig .tc) := [main_cst_15, main_v88, main_v89, main_v90, main_cst_16, main_v91, main_cst_17, main_v92, main_v93, main_v94, main_cst_18, main_v95, main_v96, main_v97, main_v98]
theorem s10_writes : (s10 : List (HloOp τ sig (Elt F))).Forall fun op => op.writes ⊆ (s10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The operations of @main's first sixty statements, and of the next sixty. -/
abbrev opsP0 : List (HloOp τ sig (Elt F)) := s0 ++ s1 ++ s2 ++ s3 ++ s4 ++ s5
abbrev opsP1 : List (HloOp τ sig (Elt F)) := s6 ++ s7 ++ s8 ++ s9 ++ s10
/-- @main's 164 operations, in order. -/
abbrev ops : List (HloOp τ sig (Elt F)) := opsP0 ++ opsP1

set_option maxRecDepth 16384 in
set_option maxHeartbeats 4000000 in
/-- The first sixty statements are that straight line: each function's definition unfolded at its call, both sides are one
    chain of steps once sequencing is reassociated. -/
theorem part0_eq (c : Dev nD) : main_part0 (F := F) c = seq opsP0 := by
  simp only [main_part0, fn_where.body, fn_elu.body, fn_where_0.body, fn_where_1.body, opsP0, s0, s1, s2, s3, s4, s5,
    List.cons_append, List.nil_append, seq, bind_assoc, pure_bind]
  rfl

set_option maxRecDepth 16384 in
set_option maxHeartbeats 4000000 in
/-- So are the next sixty. -/
theorem part1_eq (c : Dev nD) : main_part1 (F := F) c = seq opsP1 := by
  simp only [main_part1, fn_elu.body, fn_where_0.body, fn_where_1.body, opsP1, s6, s7, s8, s9, s10,
    List.cons_append, List.nil_append, seq, bind_assoc, pure_bind]
  rfl

/-- @main is the whole line. -/
theorem main_eq (c : Dev nD) : main (F := F) c = seq ops := by
  rw [show (ops : List (HloOp τ sig (Elt F))) = opsP0 ++ opsP1 from rfl, seq_append, ← part0_eq c, ← part1_eq c]
  exact congrArg (main_part0 (F := F) c >>= ·) (funext fun _ => bind_pure (main_part1 (F := F) c))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (forall_append (forall_append (forall_append (forall_append s0_sub s1_sub) s2_sub) s3_sub) s4_sub) s5_sub)
    (forall_append (forall_append (forall_append (forall_append s6_sub s7_sub) s8_sub) s9_sub) s10_sub)

theorem ops_fresh : ∀ op ∈ (ops : List (HloOp τ sig (Elt F))), op.fresh = ∅ :=
  List.forall_iff_forall_mem.mp
    (forall_append (forall_append (forall_append (forall_append (forall_append (forall_append s0_fresh s1_fresh) s2_fresh) s3_fresh) s4_fresh) s5_fresh)
      (forall_append (forall_append (forall_append (forall_append s6_fresh s7_fresh) s8_fresh) s9_fresh) s10_fresh))

/-- On every device, from any memory with zero counters: every weakly fair execution of @main terminates, and each buffer
    ends at the fold of the 164 operations over the launch contents. -/
theorem run_bare (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRun.lean ====
/-
  The reference program's run, read back: the fold of @main's 164 operations over the launch contents, taken one stretch
  at a time. After each stretch the buffer it ends in holds the network's value at that depth — the message ends, the
  inverse square roots of the degrees, the norm, x · W1, each propagation, each elu (agg + b) · W, the head, the pool — as
  a function of the argument arrays alone; a buffer a stretch does not write keeps its contents through it, so the
  arguments come through unchanged.
-/
import proofs.«110824_j62483184222290_1_alg».proof.Proof.RefOps
import proofs.«110824_j62483184222290_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo Cert.Gcn

variable (V0 : Valuation τ sig (Elt Ideal))

/-- The buffers' contents after the first 1 stretch. -/
def val1 : Valuation τ sig (Elt Ideal) := after (s0 (F := Ideal)) V0
/-- A buffer stretch 0 does not write keeps its contents through it. -/
theorem val1_keep (r : Ref sig .tc) (h : r ∉ s0_W) : val1 V0 (Proc.devRef .tc r) = V0 (Proc.devRef .tc r) :=
  after_of_writes_sub (s0 (F := Ideal)) _ s0_writes h
theorem val1_main_arg0 : val1 V0 (no_index (Proc.devRef .tc main_arg0)) = V0 (Proc.devRef .tc main_arg0) :=
  val1_keep V0 main_arg0 (by decide)
theorem val1_main_arg1 : val1 V0 (no_index (Proc.devRef .tc main_arg1)) = V0 (Proc.devRef .tc main_arg1) :=
  val1_keep V0 main_arg1 (by decide)
theorem val1_main_arg2 : val1 V0 (no_index (Proc.devRef .tc main_arg2)) = V0 (Proc.devRef .tc main_arg2) :=
  val1_keep V0 main_arg2 (by decide)
theorem val1_main_arg3 : val1 V0 (no_index (Proc.devRef .tc main_arg3)) = V0 (Proc.devRef .tc main_arg3) :=
  val1_keep V0 main_arg3 (by decide)
theorem val1_main_arg4 : val1 V0 (no_index (Proc.devRef .tc main_arg4)) = V0 (Proc.devRef .tc main_arg4) :=
  val1_keep V0 main_arg4 (by decide)
theorem val1_main_arg5 : val1 V0 (no_index (Proc.devRef .tc main_arg5)) = V0 (Proc.devRef .tc main_arg5) :=
  val1_keep V0 main_arg5 (by decide)
theorem val1_main_arg6 : val1 V0 (no_index (Proc.devRef .tc main_arg6)) = V0 (Proc.devRef .tc main_arg6) :=
  val1_keep V0 main_arg6 (by decide)
theorem val1_main_arg7 : val1 V0 (no_index (Proc.devRef .tc main_arg7)) = V0 (Proc.devRef .tc main_arg7) :=
  val1_keep V0 main_arg7 (by decide)
theorem val1_main_arg8 : val1 V0 (no_index (Proc.devRef .tc main_arg8)) = V0 (Proc.devRef .tc main_arg8) :=
  val1_keep V0 main_arg8 (by decide)
theorem val1_main_arg9 : val1 V0 (no_index (Proc.devRef .tc main_arg9)) = V0 (Proc.devRef .tc main_arg9) :=
  val1_keep V0 main_arg9 (by decide)
theorem val1_main_arg10 : val1 V0 (no_index (Proc.devRef .tc main_arg10)) = V0 (Proc.devRef .tc main_arg10) :=
  val1_keep V0 main_arg10 (by decide)
set_option maxRecDepth 8192 in
set_option maxHeartbeats 1000000 in
theorem val1_main_v3 : val1 V0 (no_index (Proc.devRef .tc main_v3)) = srcOf (V0 (Proc.devRef .tc main_arg1)) := by
  unfold val1
  simp only [s0]
  after_results_simp
  rfl
set_option maxRecDepth 8192 in
set_option maxHeartbeats 1000000 in
theorem val1_main_v6 : val1 V0 (no_index (Proc.devRef .tc main_v6)) = tgtOf (V0 (Proc.devRef .tc main_arg1)) := by
  unfold val1
  simp only [s0]
  after_results_simp
  rfl

/-- The buffers' contents after the first 2 stretches. -/
def val2 : Valuation τ sig (Elt Ideal) := after (s1 (F := Ideal)) (val1 V0)
/-- A buffer stretch 1 does not write keeps its contents through it. -/
theorem val2_keep (r : Ref sig .tc) (h : r ∉ s1_W) : val2 V0 (Proc.devRef .tc r) = val1 V0 (Proc.devRef .tc r) :=
  after_of_writes_sub (s1 (F := Ideal)) _ s1_writes h
theorem val2_main_arg0 : val2 V0 (no_index (Proc.devRef .tc main_arg0)) = V0 (Proc.devRef .tc main_arg0) :=
  (val2_keep V0 main_arg0 (by decide)).trans (val1_main_arg0 V0)
theorem val2_main_arg1 : val2 V0 (no_index (Proc.devRef .tc main_arg1)) = V0 (Proc.devRef .tc main_arg1) :=
  (val2_keep V0 main_arg1 (by decide)).trans (val1_main_arg1 V0)
theorem val2_main_arg2 : val2 V0 (no_index (Proc.devRef .tc main_arg2)) = V0 (Proc.devRef .tc main_arg2) :=
  (val2_keep V0 main_arg2 (by decide)).trans (val1_main_arg2 V0)
theorem val2_main_arg3 : val2 V0 (no_index (Proc.devRef .tc main_arg3)) = V0 (Proc.devRef .tc main_arg3) :=
  (val2_keep V0 main_arg3 (by decide)).trans (val1_main_arg3 V0)
theorem val2_main_arg4 : val2 V0 (no_index (Proc.devRef .tc main_arg4)) = V0 (Proc.devRef .tc main_arg4) :=
  (val2_keep V0 main_arg4 (by decide)).trans (val1_main_arg4 V0)
theorem val2_main_arg5 : val2 V0 (no_index (Proc.devRef .tc main_arg5)) = V0 (Proc.devRef .tc main_arg5) :=
  (val2_keep V0 main_arg5 (by decide)).trans (val1_main_arg5 V0)
theorem val2_main_arg6 : val2 V0 (no_index (Proc.devRef .tc main_arg6)) = V0 (Proc.devRef .tc main_arg6) :=
  (val2_keep V0 main_arg6 (by decide)).trans (val1_main_arg6 V0)
theorem val2_main_arg7 : val2 V0 (no_index (Proc.devRef .tc main_arg7)) = V0 (Proc.devRef .tc main_arg7) :=
  (val2_keep V0 main_arg7 (by decide)).trans (val1_main_arg7 V0)
theorem val2_main_arg8 : val2 V0 (no_index (Proc.devRef .tc main_arg8)) = V0 (Proc.devRef .tc main_arg8) :=
  (val2_keep V0 main_arg8 (by decide)).trans (val1_main_arg8 V0)
theorem val2_main_arg9 : val2 V0 (no_index (Proc.devRef .tc main_arg9)) = V0 (Proc.devRef .tc main_arg9) :=
  (val2_keep V0 main_arg9 (by decide)).trans (val1_main_arg9 V0)
theorem val2_main_arg10 : val2 V0 (no_index (Proc.devRef .tc main_arg10)) = V0 (Proc.devRef .tc main_arg10) :=
  (val2_keep V0 main_arg10 (by decide)).trans (val1_main_arg10 V0)
theorem val2_main_v3 : val2 V0 (no_index (Proc.devRef .tc main_v3)) = srcOf (V0 (Proc.devRef .tc main_arg1)) :=
  (val2_keep V0 main_v3 (by decide)).trans (val1_main_v3 V0)
theorem val2_main_v6 : val2 V0 (no_index (Proc.devRef .tc main_v6)) = tgtOf (V0 (Proc.devRef .tc main_arg1)) :=
  (val2_keep V0 main_v6 (by decide)).trans (val1_main_v6 V0)
set_option maxRecDepth 8192 in
set_option maxHeartbeats 1000000 in
theorem val2_main_v14 : val2 V0 (no_index (Proc.devRef .tc main_v14)) = dinvOf (V0 (Proc.devRef .tc main_arg1)) := by
  unfold val2
  simp only [s1]
  after_results_simp
  simp only [val1_main_v6 V0]
  rfl

/-- The buffers' contents after the first 3 stretches. -/
def val3 : Valuation τ sig (Elt Ideal) := after (s2 (F := Ideal)) (val2 V0)
/-- A buffer stretch 2 does not write keeps its contents through it. -/
theorem val3_keep (r : Ref sig .tc) (h : r ∉ s2_W) : val3 V0 (Proc.devRef .tc r) = val2 V0 (Proc.devRef .tc r) :=
  after_of_writes_sub (s2 (F := Ideal)) _ s2_writes h
theorem val3_main_arg0 : val3 V0 (no_index (Proc.devRef .tc main_arg0)) = V0 (Proc.devRef .tc main_arg0) :=
  (val3_keep V0 main_arg0 (by decide)).trans (val2_main_arg0 V0)
theorem val3_main_arg1 : val3 V0 (no_index (Proc.devRef .tc main_arg1)) = V0 (Proc.devRef .tc main_arg1) :=
  (val3_keep V0 main_arg1 (by decide)).trans (val2_main_arg1 V0)
theorem val3_main_arg2 : val3 V0 (no_index (Proc.devRef .tc main_arg2)) = V0 (Proc.devRef .tc main_arg2) :=
  (val3_keep V0 main_arg2 (by decide)).trans (val2_main_arg2 V0)
theorem val3_main_arg3 : val3 V0 (no_index (Proc.devRef .tc main_arg3)) = V0 (Proc.devRef .tc main_arg3) :=
  (val3_keep V0 main_arg3 (by decide)).trans (val2_main_arg3 V0)
theorem val3_main_arg4 : val3 V0 (no_index (Proc.devRef .tc main_arg4)) = V0 (Proc.devRef .tc main_arg4) :=
  (val3_keep V0 main_arg4 (by decide)).trans (val2_main_arg4 V0)
theorem val3_main_arg5 : val3 V0 (no_index (Proc.devRef .tc main_arg5)) = V0 (Proc.devRef .tc main_arg5) :=
  (val3_keep V0 main_arg5 (by decide)).trans (val2_main_arg5 V0)
theorem val3_main_arg6 : val3 V0 (no_index (Proc.devRef .tc main_arg6)) = V0 (Proc.devRef .tc main_arg6) :=
  (val3_keep V0 main_arg6 (by decide)).trans (val2_main_arg6 V0)
theorem val3_main_arg7 : val3 V0 (no_index (Proc.devRef .tc main_arg7)) = V0 (Proc.devRef .tc main_arg7) :=
  (val3_keep V0 main_arg7 (by decide)).trans (val2_main_arg7 V0)
theorem val3_main_arg8 : val3 V0 (no_index (Proc.devRef .tc main_arg8)) = V0 (Proc.devRef .tc main_arg8) :=
  (val3_keep V0 main_arg8 (by decide)).trans (val2_main_arg8 V0)
theorem val3_main_arg9 : val3 V0 (no_index (Proc.devRef .tc main_arg9)) = V0 (Proc.devRef .tc main_arg9) :=
  (val3_keep V0 main_arg9 (by decide)).trans (val2_main_arg9 V0)
theorem val3_main_arg10 : val3 V0 (no_index (Proc.devRef .tc main_arg10)) = V0 (Proc.devRef .tc main_arg10) :=
  (val3_keep V0 main_arg10 (by decide)).trans (val2_main_arg10 V0)
theorem val3_main_v3 : val3 V0 (no_index (Proc.devRef .tc main_v3)) = srcOf (V0 (Proc.devRef .tc main_arg1)) :=
  (val3_keep V0 main_v3 (by decide)).trans (val2_main_v3 V0)
theorem val3_main_v6 : val3 V0 (no_index (Proc.devRef .tc main_v6)) = tgtOf (V0 (Proc.devRef .tc main_arg1)) :=
  (val3_keep V0 main_v6 (by decide)).trans (val2_main_v6 V0)
set_option maxRecDepth 8192 in
set_option maxHeartbeats 1000000 in
theorem val3_main_v29 : val3 V0 (no_index (Proc.devRef .tc main_v29)) = normOf (V0 (Proc.devRef .tc main_arg1)) := by
  unfold val3
  simp only [s2]
  after_results_simp
  simp only [val2_main_v3 V0, val2_main_v6 V0, val2_main_v14 V0]
  rfl

/-- The buffers' contents after the first 4 stretches. -/
def val4 : Valuation τ sig (Elt Ideal) := after (s3 (F := Ideal)) (val3 V0)
/-- A buffer stretch 3 does not write keeps its contents through it. -/
theorem val4_keep (r : Ref sig .tc) (h : r ∉ s3_W) : val4 V0 (Proc.devRef .tc r) = val3 V0 (Proc.devRef .tc r) :=
  after_of_writes_sub (s3 (F := Ideal)) _ s3_writes h
theorem val4_main_arg0 : val4 V0 (no_index (Proc.devRef .tc main_arg0)) = V0 (Proc.devRef .tc main_arg0) :=
  (val4_keep V0 main_arg0 (by decide)).trans (val3_main_arg0 V0)
theorem val4_main_arg1 : val4 V0 (no_index (Proc.devRef .tc main_arg1)) = V0 (Proc.devRef .tc main_arg1) :=
  (val4_keep V0 main_arg1 (by decide)).trans (val3_main_arg1 V0)
theorem val4_main_arg2 : val4 V0 (no_index (Proc.devRef .tc main_arg2)) = V0 (Proc.devRef .tc main_arg2) :=
  (val4_keep V0 main_arg2 (by decide)).trans (val3_main_arg2 V0)
theorem val4_main_arg3 : val4 V0 (no_index (Proc.devRef .tc main_arg3)) = V0 (Proc.devRef .tc main_arg3) :=
  (val4_keep V0 main_arg3 (by decide)).trans (val3_main_arg3 V0)
theorem val4_main_arg4 : val4 V0 (no_index (Proc.devRef .tc main_arg4)) = V0 (Proc.devRef .tc main_arg4) :=
  (val4_keep V0 main_arg4 (by decide)).trans (val3_main_arg4 V0)
theorem val4_main_arg5 : val4 V0 (no_index (Proc.devRef .tc main_arg5)) = V0 (Proc.devRef .tc main_arg5) :=
  (val4_keep V0 main_arg5 (by decide)).trans (val3_main_arg5 V0)
theorem val4_main_arg6 : val4 V0 (no_index (Proc.devRef .tc main_arg6)) = V0 (Proc.devRef .tc main_arg6) :=
  (val4_keep V0 main_arg6 (by decide)).trans (val3_main_arg6 V0)
theorem val4_main_arg7 : val4 V0 (no_index (Proc.devRef .tc main_arg7)) = V0 (Proc.devRef .tc main_arg7) :=
  (val4_keep V0 main_arg7 (by decide)).trans (val3_main_arg7 V0)
theorem val4_main_arg8 : val4 V0 (no_index (Proc.devRef .tc main_arg8)) = V0 (Proc.devRef .tc main_arg8) :=
  (val4_keep V0 main_arg8 (by decide)).trans (val3_main_arg8 V0)
theorem val4_main_arg9 : val4 V0 (no_index (Proc.devRef .tc main_arg9)) = V0 (Proc.devRef .tc main_arg9) :=
  (val4_keep V0 main_arg9 (by decide)).trans (val3_main_arg9 V0)
theorem val4_main_arg10 : val4 V0 (no_index (Proc.devRef .tc main_arg10)) = V0 (Proc.devRef .tc main_arg10) :=
  (val4_keep V0 main_arg10 (by decide)).trans (val3_main_arg10 V0)
theorem val4_main_v3 : val4 V0 (no_index (Proc.devRef .tc main_v3)) = srcOf (V0 (Proc.devRef .tc main_arg1)) :=
  (val4_keep V0 main_v3 (by decide)).trans (val3_main_v3 V0)
theorem val4_main_v6 : val4 V0 (no_index (Proc.devRef .tc main_v6)) = tgtOf (V0 (Proc.devRef .tc main_arg1)) :=
  (val4_keep V0 main_v6 (by decide)).trans (val3_main_v6 V0)
theorem val4_main_v29 : val4 V0 (no_index (Proc.devRef .tc main_v29)) = normOf (V0 (Proc.devRef .tc main_arg1)) :=
  (val4_keep V0 main_v29 (by decide)).trans (val3_main_v29 V0)
set_option maxRecDepth 8192 in
set_option maxHeartbeats 1000000 in
theorem val4_main_v30 : val4 V0 (no_index (Proc.devRef .tc main_v30)) = lin128 (V0 (Proc.devRef .tc main_arg0)) (V0 (Proc.devRef .tc main_arg3)) := by
  unfold val4
  simp only [s3]
  after_results_simp
  simp only [val3_main_arg0 V0, val3_main_arg3 V0]
  rfl

/-- The buffers' contents after the first 5 stretches. -/
def val5 : Valuation τ sig (Elt Ideal) := after (s4 (F := Ideal)) (val4 V0)
/-- A buffer stretch 4 does not write keeps its contents through it. -/
theorem val5_keep (r : Ref sig .tc) (h : r ∉ s4_W) : val5 V0 (Proc.devRef .tc r) = val4 V0 (Proc.devRef .tc r) :=
  after_of_writes_sub (s4 (F := Ideal)) _ s4_writes h
theorem val5_main_arg0 : val5 V0 (no_index (Proc.devRef .tc main_arg0)) = V0 (Proc.devRef .tc main_arg0) :=
  (val5_keep V0 main_arg0 (by decide)).trans (val4_main_arg0 V0)
theorem val5_main_arg1 : val5 V0 (no_index (Proc.devRef .tc main_arg1)) = V0 (Proc.devRef .tc main_arg1) :=
  (val5_keep V0 main_arg1 (by decide)).trans (val4_main_arg1 V0)
theorem val5_main_arg2 : val5 V0 (no_index (Proc.devRef .tc main_arg2)) = V0 (Proc.devRef .tc main_arg2) :=
  (val5_keep V0 main_arg2 (by decide)).trans (val4_main_arg2 V0)
theorem val5_main_arg3 : val5 V0 (no_index (Proc.devRef .tc main_arg3)) = V0 (Proc.devRef .tc main_arg3) :=
  (val5_keep V0 main_arg3 (by decide)).trans (val4_main_arg3 V0)
theorem val5_main_arg4 : val5 V0 (no_index (Proc.devRef .tc main_arg4)) = V0 (Proc.devRef .tc main_arg4) :=
  (val5_keep V0 main_arg4 (by decide)).trans (val4_main_arg4 V0)
theorem val5_main_arg5 : val5 V0 (no_index (Proc.devRef .tc main_arg5)) = V0 (Proc.devRef .tc main_arg5) :=
  (val5_keep V0 main_arg5 (by decide)).trans (val4_main_arg5 V0)
theorem val5_main_arg6 : val5 V0 (no_index (Proc.devRef .tc main_arg6)) = V0 (Proc.devRef .tc main_arg6) :=
  (val5_keep V0 main_arg6 (by decide)).trans (val4_main_arg6 V0)
theorem val5_main_arg7 : val5 V0 (no_index (Proc.devRef .tc main_arg7)) = V0 (Proc.devRef .tc main_arg7) :=
  (val5_keep V0 main_arg7 (by decide)).trans (val4_main_arg7 V0)
theorem val5_main_arg8 : val5 V0 (no_index (Proc.devRef .tc main_arg8)) = V0 (Proc.devRef .tc main_arg8) :=
  (val5_keep V0 main_arg8 (by decide)).trans (val4_main_arg8 V0)
theorem val5_main_arg9 : val5 V0 (no_index (Proc.devRef .tc main_arg9)) = V0 (Proc.devRef .tc main_arg9) :=
  (val5_keep V0 main_arg9 (by decide)).trans (val4_main_arg9 V0)
theorem val5_main_arg10 : val5 V0 (no_index (Proc.devRef .tc main_arg10)) = V0 (Proc.devRef .tc main_arg10) :=
  (val5_keep V0 main_arg10 (by decide)).trans (val4_main_arg10 V0)
theorem val5_main_v3 : val5 V0 (no_index (Proc.devRef .tc main_v3)) = srcOf (V0 (Proc.devRef .tc main_arg1)) :=
  (val5_keep V0 main_v3 (by decide)).trans (val4_main_v3 V0)
theorem val5_main_v6 : val5 V0 (no_index (Proc.devRef .tc main_v6)) = tgtOf (V0 (Proc.devRef .tc main_arg1)) :=
  (val5_keep V0 main_v6 (by decide)).trans (val4_main_v6 V0)
theorem val5_main_v29 : val5 V0 (no_index (Proc.devRef .tc main_v29)) = normOf (V0 (Proc.devRef .tc main_arg1)) :=
  (val5_keep V0 main_v29 (by decide)).trans (val4_main_v29 V0)
set_option maxRecDepth 8192 in
set_option maxHeartbeats 1000000 in
theorem val5_main_v43 : val5 V0 (no_index (Proc.devRef .tc main_v43)) = gs (V0 (Proc.devRef .tc main_arg1)) (lin128 (V0 (Proc.devRef .tc main_arg0)) (V0 (Proc.devRef .tc main_arg3))) := by
  unfold val5
  simp only [s4]
  after_results_simp
  simp only [val4_main_v3 V0, val4_main_v6 V0, val4_main_v29 V0, val4_main_v30 V0]
  rfl

/-- The buffers' contents after the first 6 stretches. -/
def val6 : Valuation τ sig (Elt Ideal) := after (s5 (F := Ideal)) (val5 V0)
/-- A buffer stretch 5 does not write keeps its contents through it. -/
theorem val6_keep (r : Ref sig .tc) (h : r ∉ s5_W) : val6 V0 (Proc.devRef .tc r) = val5 V0 (Proc.devRef .tc r) :=
  after_of_writes_sub (s5 (F := Ideal)) _ s5_writes h
theorem val6_main_arg0 : val6 V0 (no_index (Proc.devRef .tc main_arg0)) = V0 (Proc.devRef .tc main_arg0) :=
  (val6_keep V0 main_arg0 (by decide)).trans (val5_main_arg0 V0)
theorem val6_main_arg1 : val6 V0 (no_index (Proc.devRef .tc main_arg1)) = V0 (Proc.devRef .tc main_arg1) :=
  (val6_keep V0 main_arg1 (by decide)).trans (val5_main_arg1 V0)
theorem val6_main_arg2 : val6 V0 (no_index (Proc.devRef .tc main_arg2)) = V0 (Proc.devRef .tc main_arg2) :=
  (val6_keep V0 main_arg2 (by decide)).trans (val5_main_arg2 V0)
theorem val6_main_arg3 : val6 V0 (no_index (Proc.devRef .tc main_arg3)) = V0 (Proc.devRef .tc main_arg3) :=
  (val6_keep V0 main_arg3 (by decide)).trans (val5_main_arg3 V0)
theorem val6_main_arg4 : val6 V0 (no_index (Proc.devRef .tc main_arg4)) = V0 (Proc.devRef .tc main_arg4) :=
  (val6_keep V0 main_arg4 (by decide)).trans (val5_main_arg4 V0)
theorem val6_main_arg5 : val6 V0 (no_index (Proc.devRef .tc main_arg5)) = V0 (Proc.devRef .tc main_arg5) :=
  (val6_keep V0 main_arg5 (by decide)).trans (val5_main_arg5 V0)
theorem val6_main_arg6 : val6 V0 (no_index (Proc.devRef .tc main_arg6)) = V0 (Proc.devRef .tc main_arg6) :=
  (val6_keep V0 main_arg6 (by decide)).trans (val5_main_arg6 V0)
theorem val6_main_arg7 : val6 V0 (no_index (Proc.devRef .tc main_arg7)) = V0 (Proc.devRef .tc main_arg7) :=
  (val6_keep V0 main_arg7 (by decide)).trans (val5_main_arg7 V0)
theorem val6_main_arg8 : val6 V0 (no_index (Proc.devRef .tc main_arg8)) = V0 (Proc.devRef .tc main_arg8) :=
  (val6_keep V0 main_arg8 (by decide)).trans (val5_main_arg8 V0)
theorem val6_main_arg9 : val6 V0 (no_index (Proc.devRef .tc main_arg9)) = V0 (Proc.devRef .tc main_arg9) :=
  (val6_keep V0 main_arg9 (by decide)).trans (val5_main_arg9 V0)
theorem val6_main_arg10 : val6 V0 (no_index (Proc.devRef .tc main_arg10)) = V0 (Proc.devRef .tc main_arg10) :=
  (val6_keep V0 main_arg10 (by decide)).trans (val5_main_arg10 V0)
theorem val6_main_v3 : val6 V0 (no_index (Proc.devRef .tc main_v3)) = srcOf (V0 (Proc.devRef .tc main_arg1)) :=
  (val6_keep V0 main_v3 (by decide)).trans (val5_main_v3 V0)
theorem val6_main_v6 : val6 V0 (no_index (Proc.devRef .tc main_v6)) = tgtOf (V0 (Proc.devRef .tc main_arg1)) :=
  (val6_keep V0 main_v6 (by decide)).trans (val5_main_v6 V0)
theorem val6_main_v29 : val6 V0 (no_index (Proc.devRef .tc main_v29)) = normOf (V0 (Proc.devRef .tc main_arg1)) :=
  (val6_keep V0 main_v29 (by decide)).trans (val5_main_v29 V0)
set_option maxRecDepth 8192 in
set_option maxHeartbeats 1000000 in
theorem val6_main_v48 : val6 V0 (no_index (Proc.devRef .tc main_v48)) = dense64 (gs (V0 (Proc.devRef .tc main_arg1)) (lin128 (V0 (Proc.devRef .tc main_arg0)) (V0 (Proc.devRef .tc main_arg3)))) (rowOf (V0 (Proc.devRef .tc main_arg4))) (V0 (Proc.devRef .tc main_arg5)) := by
  unfold val6
  simp only [s5]
  after_results_simp
  simp only [val5_main_v43 V0, val5_main_arg4 V0, val5_main_arg5 V0]
  rfl

/-- The buffers' contents after the first 7 stretches. -/
def val7 : Valuation τ sig (Elt Ideal) := after (s6 (F := Ideal)) (val6 V0)
/-- A buffer stretch 6 does not write keeps its contents through it. -/
theorem val7_keep (r : Ref sig .tc) (h : r ∉ s6_W) : val7 V0 (Proc.devRef .tc r) = val6 V0 (Proc.devRef .tc r) :=
  after_of_writes_sub (s6 (F := Ideal)) _ s6_writes h
theorem val7_main_arg0 : val7 V0 (no_index (Proc.devRef .tc main_arg0)) = V0 (Proc.devRef .tc main_arg0) :=
  (val7_keep V0 main_arg0 (by decide)).trans (val6_main_arg0 V0)
theorem val7_main_arg1 : val7 V0 (no_index (Proc.devRef .tc main_arg1)) = V0 (Proc.devRef .tc main_arg1) :=
  (val7_keep V0 main_arg1 (by decide)).trans (val6_main_arg1 V0)
theorem val7_main_arg2 : val7 V0 (no_index (Proc.devRef .tc main_arg2)) = V0 (Proc.devRef .tc main_arg2) :=
  (val7_keep V0 main_arg2 (by decide)).trans (val6_main_arg2 V0)
theorem val7_main_arg3 : val7 V0 (no_index (Proc.devRef .tc main_arg3)) = V0 (Proc.devRef .tc main_arg3) :=
  (val7_keep V0 main_arg3 (by decide)).trans (val6_main_arg3 V0)
theorem val7_main_arg4 : val7 V0 (no_index (Proc.devRef .tc main_arg4)) = V0 (Proc.devRef .tc main_arg4) :=
  (val7_keep V0 main_arg4 (by decide)).trans (val6_main_arg4 V0)
theorem val7_main_arg5 : val7 V0 (no_index (Proc.devRef .tc main_arg5)) = V0 (Proc.devRef .tc main_arg5) :=
  (val7_keep V0 main_arg5 (by decide)).trans (val6_main_arg5 V0)
theorem val7_main_arg6 : val7 V0 (no_index (Proc.devRef .tc main_arg6)) = V0 (Proc.devRef .tc main_arg6) :=
  (val7_keep V0 main_arg6 (by decide)).trans (val6_main_arg6 V0)
theorem val7_main_arg7 : val7 V0 (no_index (Proc.devRef .tc main_arg7)) = V0 (Proc.devRef .tc main_arg7) :=
  (val7_keep V0 main_arg7 (by decide)).trans (val6_main_arg7 V0)
theorem val7_main_arg8 : val7 V0 (no_index (Proc.devRef .tc main_arg8)) = V0 (Proc.devRef .tc main_arg8) :=
  (val7_keep V0 main_arg8 (by decide)).trans (val6_main_arg8 V0)
theorem val7_main_arg9 : val7 V0 (no_index (Proc.devRef .tc main_arg9)) = V0 (Proc.devRef .tc main_arg9) :=
  (val7_keep V0 main_arg9 (by decide)).trans (val6_main_arg9 V0)
theorem val7_main_arg10 : val7 V0 (no_index (Proc.devRef .tc main_arg10)) = V0 (Proc.devRef .tc main_arg10) :=
  (val7_keep V0 main_arg10 (by decide)).trans (val6_main_arg10 V0)
theorem val7_main_v3 : val7 V0 (no_index (Proc.devRef .tc main_v3)) = srcOf (V0 (Proc.devRef .tc main_arg1)) :=
  (val7_keep V0 main_v3 (by decide)).trans (val6_main_v3 V0)
theorem val7_main_v6 : val7 V0 (no_index (Proc.devRef .tc main_v6)) = tgtOf (V0 (Proc.devRef .tc main_arg1)) :=
  (val7_keep V0 main_v6 (by decide)).trans (val6_main_v6 V0)
theorem val7_main_v29 : val7 V0 (no_index (Proc.devRef .tc main_v29)) = normOf (V0 (Proc.devRef .tc main_arg1)) :=
  (val7_keep V0 main_v29 (by decide)).trans (val6_main_v29 V0)
set_option maxRecDepth 8192 in
set_option maxHeartbeats 1000000 in
theorem val7_main_v61 : val7 V0 (no_index (Proc.devRef .tc main_v61)) = gs (V0 (Proc.devRef .tc main_arg1)) (dense64 (gs (V0 (Proc.devRef .tc main_arg1)) (lin128 (V0 (Proc.devRef .tc main_arg0)) (V0 (Proc.devRef .tc main_arg3)))) (rowOf (V0 (Proc.devRef .tc main_arg4))) (V0 (Proc.devRef .tc main_arg5))) := by
  unfold val7
  simp only [s6]
  after_results_simp
  simp only [val6_main_v3 V0, val6_main_v6 V0, val6_main_v29 V0, val6_main_v48 V0]
  rfl

/-- The buffers' contents after the first 8 stretches. -/
def val8 : Valuation τ sig (Elt Ideal) := after (s7 (F := Ideal)) (val7 V0)
/-- A buffer stretch 7 does not write keeps its contents through it. -/
theorem val8_keep (r : Ref sig .tc) (h : r ∉ s7_W) : val8 V0 (Proc.devRef .tc r) = val7 V0 (Proc.devRef .tc r) :=
  after_of_writes_sub (s7 (F := Ideal)) _ s7_writes h
theorem val8_main_arg0 : val8 V0 (no_index (Proc.devRef .tc main_arg0)) = V0 (Proc.devRef .tc main_arg0) :=
  (val8_keep V0 main_arg0 (by decide)).trans (val7_main_arg0 V0)
theorem val8_main_arg1 : val8 V0 (no_index (Proc.devRef .tc main_arg1)) = V0 (Proc.devRef .tc main_arg1) :=
  (val8_keep V0 main_arg1 (by decide)).trans (val7_main_arg1 V0)
theorem val8_main_arg2 : val8 V0 (no_index (Proc.devRef .tc main_arg2)) = V0 (Proc.devRef .tc main_arg2) :=
  (val8_keep V0 main_arg2 (by decide)).trans (val7_main_arg2 V0)
theorem val8_main_arg3 : val8 V0 (no_index (Proc.devRef .tc main_arg3)) = V0 (Proc.devRef .tc main_arg3) :=
  (val8_keep V0 main_arg3 (by decide)).trans (val7_main_arg3 V0)
theorem val8_main_arg4 : val8 V0 (no_index (Proc.devRef .tc main_arg4)) = V0 (Proc.devRef .tc main_arg4) :=
  (val8_keep V0 main_arg4 (by decide)).trans (val7_main_arg4 V0)
theorem val8_main_arg5 : val8 V0 (no_index (Proc.devRef .tc main_arg5)) = V0 (Proc.devRef .tc main_arg5) :=
  (val8_keep V0 main_arg5 (by decide)).trans (val7_main_arg5 V0)
theorem val8_main_arg6 : val8 V0 (no_index (Proc.devRef .tc main_arg6)) = V0 (Proc.devRef .tc main_arg6) :=
  (val8_keep V0 main_arg6 (by decide)).trans (val7_main_arg6 V0)
theorem val8_main_arg7 : val8 V0 (no_index (Proc.devRef .tc main_arg7)) = V0 (Proc.devRef .tc main_arg7) :=
  (val8_keep V0 main_arg7 (by decide)).trans (val7_main_arg7 V0)
theorem val8_main_arg8 : val8 V0 (no_index (Proc.devRef .tc main_arg8)) = V0 (Proc.devRef .tc main_arg8) :=
  (val8_keep V0 main_arg8 (by decide)).trans (val7_main_arg8 V0)
theorem val8_main_arg9 : val8 V0 (no_index (Proc.devRef .tc main_arg9)) = V0 (Proc.devRef .tc main_arg9) :=
  (val8_keep V0 main_arg9 (by decide)).trans (val7_main_arg9 V0)
theorem val8_main_arg10 : val8 V0 (no_index (Proc.devRef .tc main_arg10)) = V0 (Proc.devRef .tc main_arg10) :=
  (val8_keep V0 main_arg10 (by decide)).trans (val7_main_arg10 V0)
theorem val8_main_v3 : val8 V0 (no_index (Proc.devRef .tc main_v3)) = srcOf (V0 (Proc.devRef .tc main_arg1)) :=
  (val8_keep V0 main_v3 (by decide)).trans (val7_main_v3 V0)
theorem val8_main_v6 : val8 V0 (no_index (Proc.devRef .tc main_v6)) = tgtOf (V0 (Proc.devRef .tc main_arg1)) :=
  (val8_keep V0 main_v6 (by decide)).trans (val7_main_v6 V0)
theorem val8_main_v29 : val8 V0 (no_index (Proc.devRef .tc main_v29)) = normOf (V0 (Proc.devRef .tc main_arg1)) :=
  (val8_keep V0 main_v29 (by decide)).trans (val7_main_v29 V0)
set_option maxRecDepth 8192 in
set_option maxHeartbeats 1000000 in
theorem val8_main_v66 : val8 V0 (no_index (Proc.devRef .tc main_v66)) = dense64 (gs (V0 (Proc.devRef .tc main_arg1)) (dense64 (gs (V0 (Proc.devRef .tc main_arg1)) (lin128 (V0 (Proc.devRef .tc main_arg0)) (V0 (Proc.devRef .tc main_arg3)))) (rowOf (V0 (Proc.devRef .tc main_arg4))) (V0 (Proc.devRef .tc main_arg5)))) (rowOf (V0 (Proc.devRef .tc main_arg6))) (V0 (Proc.devRef .tc main_arg7)) := by
  unfold val8
  simp only [s7]
  after_results_simp
  simp only [val7_main_v61 V0, val7_main_arg6 V0, val7_main_arg7 V0]
  rfl

/-- The buffers' contents after the first 9 stretches. -/
def val9 : Valuation τ sig (Elt Ideal) := after (s8 (F := Ideal)) (val8 V0)
/-- A buffer stretch 8 does not write keeps its contents through it. -/
theorem val9_keep (r : Ref sig .tc) (h : r ∉ s8_W) : val9 V0 (Proc.devRef .tc r) = val8 V0 (Proc.devRef .tc r) :=
  after_of_writes_sub (s8 (F := Ideal)) _ s8_writes h
theorem val9_main_arg0 : val9 V0 (no_index (Proc.devRef .tc main_arg0)) = V0 (Proc.devRef .tc main_arg0) :=
  (val9_keep V0 main_arg0 (by decide)).trans (val8_main_arg0 V0)
theorem val9_main_arg1 : val9 V0 (no_index (Proc.devRef .tc main_arg1)) = V0 (Proc.devRef .tc main_arg1) :=
  (val9_keep V0 main_arg1 (by decide)).trans (val8_main_arg1 V0)
theorem val9_main_arg2 : val9 V0 (no_index (Proc.devRef .tc main_arg2)) = V0 (Proc.devRef .tc main_arg2) :=
  (val9_keep V0 main_arg2 (by decide)).trans (val8_main_arg2 V0)
theorem val9_main_arg3 : val9 V0 (no_index (Proc.devRef .tc main_arg3)) = V0 (Proc.devRef .tc main_arg3) :=
  (val9_keep V0 main_arg3 (by decide)).trans (val8_main_arg3 V0)
theorem val9_main_arg4 : val9 V0 (no_index (Proc.devRef .tc main_arg4)) = V0 (Proc.devRef .tc main_arg4) :=
  (val9_keep V0 main_arg4 (by decide)).trans (val8_main_arg4 V0)
theorem val9_main_arg5 : val9 V0 (no_index (Proc.devRef .tc main_arg5)) = V0 (Proc.devRef .tc main_arg5) :=
  (val9_keep V0 main_arg5 (by decide)).trans (val8_main_arg5 V0)
theorem val9_main_arg6 : val9 V0 (no_index (Proc.devRef .tc main_arg6)) = V0 (Proc.devRef .tc main_arg6) :=
  (val9_keep V0 main_arg6 (by decide)).trans (val8_main_arg6 V0)
theorem val9_main_arg7 : val9 V0 (no_index (Proc.devRef .tc main_arg7)) = V0 (Proc.devRef .tc main_arg7) :=
  (val9_keep V0 main_arg7 (by decide)).trans (val8_main_arg7 V0)
theorem val9_main_arg8 : val9 V0 (no_index (Proc.devRef .tc main_arg8)) = V0 (Proc.devRef .tc main_arg8) :=
  (val9_keep V0 main_arg8 (by decide)).trans (val8_main_arg8 V0)
theorem val9_main_arg9 : val9 V0 (no_index (Proc.devRef .tc main_arg9)) = V0 (Proc.devRef .tc main_arg9) :=
  (val9_keep V0 main_arg9 (by decide)).trans (val8_main_arg9 V0)
theorem val9_main_arg10 : val9 V0 (no_index (Proc.devRef .tc main_arg10)) = V0 (Proc.devRef .tc main_arg10) :=
  (val9_keep V0 main_arg10 (by decide)).trans (val8_main_arg10 V0)
set_option maxRecDepth 8192 in
set_option maxHeartbeats 1000000 in
theorem val9_main_v79 : val9 V0 (no_index (Proc.devRef .tc main_v79)) = gs (V0 (Proc.devRef .tc main_arg1)) (dense64 (gs (V0 (Proc.devRef .tc main_arg1)) (dense64 (gs (V0 (Proc.devRef .tc main_arg1)) (lin128 (V0 (Proc.devRef .tc main_arg0)) (V0 (Proc.devRef .tc main_arg3)))) (rowOf (V0 (Proc.devRef .tc main_arg4))) (V0 (Proc.devRef .tc main_arg5)))) (rowOf (V0 (Proc.devRef .tc main_arg6))) (V0 (Proc.devRef .tc main_arg7))) := by
  unfold val9
  simp only [s8]
  after_results_simp
  simp only [val8_main_v3 V0, val8_main_v6 V0, val8_main_v29 V0, val8_main_v66 V0]
  rfl

/-- The buffers' contents after the first 10 stretches. -/
def val10 : Valuation τ sig (Elt Ideal) := after (s9 (F := Ideal)) (val9 V0)
/-- A buffer stretch 9 does not write keeps its contents through it. -/
theorem val10_keep (r : Ref sig .tc) (h : r ∉ s9_W) : val10 V0 (Proc.devRef .tc r) = val9 V0 (Proc.devRef .tc r) :=
  after_of_writes_sub (s9 (F := Ideal)) _ s9_writes h
theorem val10_main_arg0 : val10 V0 (no_index (Proc.devRef .tc main_arg0)) = V0 (Proc.devRef .tc main_arg0) :=
  (val10_keep V0 main_arg0 (by decide)).trans (val9_main_arg0 V0)
theorem val10_main_arg1 : val10 V0 (no_index (Proc.devRef .tc main_arg1)) = V0 (Proc.devRef .tc main_arg1) :=
  (val10_keep V0 main_arg1 (by decide)).trans (val9_main_arg1 V0)
theorem val10_main_arg2 : val10 V0 (no_index (Proc.devRef .tc main_arg2)) = V0 (Proc.devRef .tc main_arg2) :=
  (val10_keep V0 main_arg2 (by decide)).trans (val9_main_arg2 V0)
theorem val10_main_arg3 : val10 V0 (no_index (Proc.devRef .tc main_arg3)) = V0 (Proc.devRef .tc main_arg3) :=
  (val10_keep V0 main_arg3 (by decide)).trans (val9_main_arg3 V0)
theorem val10_main_arg4 : val10 V0 (no_index (Proc.devRef .tc main_arg4)) = V0 (Proc.devRef .tc main_arg4) :=
  (val10_keep V0 main_arg4 (by decide)).trans (val9_main_arg4 V0)
theorem val10_main_arg5 : val10 V0 (no_index (Proc.devRef .tc main_arg5)) = V0 (Proc.devRef .tc main_arg5) :=
  (val10_keep V0 main_arg5 (by decide)).trans (val9_main_arg5 V0)
theorem val10_main_arg6 : val10 V0 (no_index (Proc.devRef .tc main_arg6)) = V0 (Proc.devRef .tc main_arg6) :=
  (val10_keep V0 main_arg6 (by decide)).trans (val9_main_arg6 V0)
theorem val10_main_arg7 : val10 V0 (no_index (Proc.devRef .tc main_arg7)) = V0 (Proc.devRef .tc main_arg7) :=
  (val10_keep V0 main_arg7 (by decide)).trans (val9_main_arg7 V0)
theorem val10_main_arg8 : val10 V0 (no_index (Proc.devRef .tc main_arg8)) = V0 (Proc.devRef .tc main_arg8) :=
  (val10_keep V0 main_arg8 (by decide)).trans (val9_main_arg8 V0)
theorem val10_main_arg9 : val10 V0 (no_index (Proc.devRef .tc main_arg9)) = V0 (Proc.devRef .tc main_arg9) :=
  (val10_keep V0 main_arg9 (by decide)).trans (val9_main_arg9 V0)
theorem val10_main_arg10 : val10 V0 (no_index (Proc.devRef .tc main_arg10)) = V0 (Proc.devRef .tc main_arg10) :=
  (val10_keep V0 main_arg10 (by decide)).trans (val9_main_arg10 V0)
set_option maxRecDepth 8192 in
set_option maxHeartbeats 1000000 in
theorem val10_main_v87 : val10 V0 (no_index (Proc.devRef .tc main_v87)) = head (gs (V0 (Proc.devRef .tc main_arg1)) (dense64 (gs (V0 (Proc.devRef .tc main_arg1)) (dense64 (gs (V0 (Proc.devRef .tc main_arg1)) (lin128 (V0 (Proc.devRef .tc main_arg0)) (V0 (Proc.devRef .tc main_arg3)))) (rowOf (V0 (Proc.devRef .tc main_arg4))) (V0 (Proc.devRef .tc main_arg5)))) (rowOf (V0 (Proc.devRef .tc main_arg6))) (V0 (Proc.devRef .tc main_arg7)))) (rowOf (V0 (Proc.devRef .tc main_arg8))) (V0 (Proc.devRef .tc main_arg9)) (broadcastInDim S1x1 ![1] bcast_S1_S1x1_1 (V0 (Proc.devRef .tc main_arg10))) := by
  unfold val10
  simp only [s9]
  after_results_simp
  simp only [val9_main_v79 V0, val9_main_arg8 V0, val9_main_arg9 V0, val9_main_arg10 V0]
  rfl

/-- The buffers' contents after the first 11 stretches. -/
def val11 : Valuation τ sig (Elt Ideal) := after (s10 (F := Ideal)) (val10 V0)
/-- A buffer stretch 10 does not write keeps its contents through it. -/
theorem val11_keep (r : Ref sig .tc) (h : r ∉ s10_W) : val11 V0 (Proc.devRef .tc r) = val10 V0 (Proc.devRef .tc r) :=
  after_of_writes_sub (s10 (F := Ideal)) _ s10_writes h
theorem val11_main_arg0 : val11 V0 (no_index (Proc.devRef .tc main_arg0)) = V0 (Proc.devRef .tc main_arg0) :=
  (val11_keep V0 main_arg0 (by decide)).trans (val10_main_arg0 V0)
theorem val11_main_arg1 : val11 V0 (no_index (Proc.devRef .tc main_arg1)) = V0 (Proc.devRef .tc main_arg1) :=
  (val11_keep V0 main_arg1 (by decide)).trans (val10_main_arg1 V0)
theorem val11_main_arg2 : val11 V0 (no_index (Proc.devRef .tc main_arg2)) = V0 (Proc.devRef .tc main_arg2) :=
  (val11_keep V0 main_arg2 (by decide)).trans (val10_main_arg2 V0)
theorem val11_main_arg3 : val11 V0 (no_index (Proc.devRef .tc main_arg3)) = V0 (Proc.devRef .tc main_arg3) :=
  (val11_keep V0 main_arg3 (by decide)).trans (val10_main_arg3 V0)
theorem val11_main_arg4 : val11 V0 (no_index (Proc.devRef .tc main_arg4)) = V0 (Proc.devRef .tc main_arg4) :=
  (val11_keep V0 main_arg4 (by decide)).trans (val10_main_arg4 V0)
theorem val11_main_arg5 : val11 V0 (no_index (Proc.devRef .tc main_arg5)) = V0 (Proc.devRef .tc main_arg5) :=
  (val11_keep V0 main_arg5 (by decide)).trans (val10_main_arg5 V0)
theorem val11_main_arg6 : val11 V0 (no_index (Proc.devRef .tc main_arg6)) = V0 (Proc.devRef .tc main_arg6) :=
  (val11_keep V0 main_arg6 (by decide)).trans (val10_main_arg6 V0)
theorem val11_main_arg7 : val11 V0 (no_index (Proc.devRef .tc main_arg7)) = V0 (Proc.devRef .tc main_arg7) :=
  (val11_keep V0 main_arg7 (by decide)).trans (val10_main_arg7 V0)
theorem val11_main_arg8 : val11 V0 (no_index (Proc.devRef .tc main_arg8)) = V0 (Proc.devRef .tc main_arg8) :=
  (val11_keep V0 main_arg8 (by decide)).trans (val10_main_arg8 V0)
theorem val11_main_arg9 : val11 V0 (no_index (Proc.devRef .tc main_arg9)) = V0 (Proc.devRef .tc main_arg9) :=
  (val11_keep V0 main_arg9 (by decide)).trans (val10_main_arg9 V0)
theorem val11_main_arg10 : val11 V0 (no_index (Proc.devRef .tc main_arg10)) = V0 (Proc.devRef .tc main_arg10) :=
  (val11_keep V0 main_arg10 (by decide)).trans (val10_main_arg10 V0)
set_option maxRecDepth 8192 in
set_option maxHeartbeats 1000000 in
theorem val11_main_v98 : val11 V0 (no_index (Proc.devRef .tc main_v98)) = net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val11
  simp only [s10]
  after_results_simp
  simp only [val10_main_v87 V0, val10_main_arg2 V0]
  rfl

/-- The fold of the whole line is the eleven stretches' folds, one after the other. -/
theorem after_ops : after (ops (F := Ideal)) V0 = val11 V0 := by
  unfold val11 val10 val9 val8 val7 val6 val5 val4 val3 val2 val1
  simp only [ops, opsP0, opsP1, Cert.Lib.HostFold.after_append]

/-- On every device, from any memory with zero counters: every weakly fair execution of @main terminates with the result
    buffer at the network's value of the eleven argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98)
          = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c =>
    ⟨(h c main_v98).trans ((congrFun (after_ops _) _).trans (val11_main_v98 _)),
      (h c main_arg0).trans ((congrFun (after_ops _) _).trans (val11_main_arg0 _)),
      (h c main_arg1).trans ((congrFun (after_ops _) _).trans (val11_main_arg1 _)),
      (h c main_arg2).trans ((congrFun (after_ops _) _).trans (val11_main_arg2 _)),
      (h c main_arg3).trans ((congrFun (after_ops _) _).trans (val11_main_arg3 _)),
      (h c main_arg4).trans ((congrFun (after_ops _) _).trans (val11_main_arg4 _)),
      (h c main_arg5).trans ((congrFun (after_ops _) _).trans (val11_main_arg5 _)),
      (h c main_arg6).trans ((congrFun (after_ops _) _).trans (val11_main_arg6 _)),
      (h c main_arg7).trans ((congrFun (after_ops _) _).trans (val11_main_arg7 _)),
      (h c main_arg8).trans ((congrFun (after_ops _) _).trans (val11_main_arg8 _)),
      (h c main_arg9).trans ((congrFun (after_ops _) _).trans (val11_main_arg9 _)),
      (h c main_arg10).trans ((congrFun (after_ops _) _).trans (val11_main_arg10 _))⟩)
    (run_bare m ρ)

end Cert.ReferenceIdeal.RefRun

end
-- ==== Proof.lean ====
/-
  The certificate's five claims for the three-layer graph convolution with a mean pool.

  The three frames: the word-level kernel program and its idealization each run to the end under the generated frame
  proofs; the reference, a host program, under its run read back (`RefRun.run`), the result dropped.
  The idealization rewrote no operation, so `preserves` is trivial.
  The algebraic claim: at the exact values both programs end with the result array at ONE function of the eleven
  argument arrays, `Cert.Gcn.net`: three times a dense step x · W (the kernel's matrix product block by block over ten
  row blocks, the reference's whole product: the same sums), the propagation over the edges (the same host operations in
  both programs), the bias and the exponential-linear unit (the kernel's exp t − 1 against the reference's 1 · expm1 t
  on the branch t ≤ 0: one extended real), then the head and the mean pool. The kernel's result is read off the fold of
  its eleven segments (`Fold.result_eq` over the four regions' arrays `RegionValue.*`), the reference's off its
  operation list. No law of arithmetic that needs finiteness is used, so the precondition is not opened.
-/
import proofs.«110824_j62483184222290_1_alg».proof.Defs
import proofs.«110824_j62483184222290_1_alg».proof.Proof.Gen.Kernel
import proofs.«110824_j62483184222290_1_alg».proof.Proof.Gen.Kernel.Frame
import proofs.«110824_j62483184222290_1_alg».proof.Proof.Gen.KernelIdeal
import proofs.«110824_j62483184222290_1_alg».proof.Proof.Gen.KernelIdeal.Frame
import proofs.«110824_j62483184222290_1_alg».proof.Proof.Gen.ReferenceIdeal
import proofs.«110824_j62483184222290_1_alg».proof.Proof.Gen.Pre_finite_inputs
import proofs.«110824_j62483184222290_1_alg».proof.Proof.KernelRun
import proofs.«110824_j62483184222290_1_alg».proof.Proof.Fold
import proofs.«110824_j62483184222290_1_alg».proof.Proof.Region0
import proofs.«110824_j62483184222290_1_alg».proof.Proof.Region1
import proofs.«110824_j62483184222290_1_alg».proof.Proof.Region2
import proofs.«110824_j62483184222290_1_alg».proof.Proof.Region3
import proofs.«110824_j62483184222290_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both idealized programs, from memories that agree on the arguments, end with the result at the network of the
    arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.result_eq m ρ c Cert.KernelIdeal.RegionValue.lin0
          Cert.KernelIdeal.RegionValue.dense1 Cert.KernelIdeal.RegionValue.dense2 Cert.KernelIdeal.RegionValue.head3), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
